-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S64x1 .f32) (main_arg14 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg13
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S64x64 .f32) (main_arg9 : FVec F S64 .f32) (main_arg10 : FVec F S64x64 .f32) (main_arg11 : FVec F S64x64 .f32) (main_arg12 : FVec F S64 .f32) (main_arg13 : FVec F S64x1 .f32) (main_arg14 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_v48 main_v49 main_v50

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64x64 .f32) (main_arg12 : FVec F S64 .f32) (main_arg13 : FVec F S64x1 .f32) (main_arg14 : FVec F S1 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x32 .f32) (main_arg1 : IVec S2x1600000 32) (main_arg2 : FVec F S32x64 .f32) (main_arg3 : FVec F S64 .f32) (main_arg4 : FVec F S32x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64x64 .f32) (main_arg12 : FVec F S64 .f32) (main_arg13 : FVec F S64x1 .f32) (main_arg14 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S1x64 : Shape := ⟨2, ![1, 64]⟩
abbrev S100000x64 : Shape := ⟨2, ![100000, 64]⟩
abbrev S5000x32 : Shape := ⟨2, ![5000, 32]⟩
abbrev S5000x1 : Shape := ⟨2, ![5000, 1]⟩
abbrev S5000x64 : Shape := ⟨2, ![5000, 64]⟩
abbrev S1600000x64 : Shape := ⟨2, ![1600000, 64]⟩
abbrev S1x1 : Shape := ⟨2, ![1, 1]⟩

abbrev nBuf : Space → Nat
  | .hbm => 90
  | .vmem => 37
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S32x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64x1, .f32⟩
  | .hbm, ⟨14, _⟩ => ⟨S1, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x32, .bf16⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x32, .bf16⟩
  | .hbm, ⟨49, _⟩ => ⟨S1600000x32, .f32⟩
  | .hbm, ⟨50, _⟩ => ⟨S_, .f32⟩
  | .hbm, ⟨51, _⟩ => ⟨S100000x32, .f32⟩
  | .hbm, ⟨52, _⟩ => ⟨S1600000x1, .i32⟩
  | .hbm, ⟨53, _⟩ => ⟨S100000x32, .f32⟩
  | .hbm, ⟨54, _⟩ => ⟨S1x64, .f32⟩
  | .hbm, ⟨55, _⟩ => ⟨S100000x64, .bf16⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .bf16⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S1x64, .f32⟩
  | .hbm, ⟨71, _⟩ => ⟨S100000x64, .bf16⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x64, .bf16⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S1x64, .f32⟩
  | .hbm, ⟨87, _⟩ => ⟨S1x64, .f32⟩
  | .hbm, ⟨88, _⟩ => ⟨S1x1, .f32⟩
  | .hbm, ⟨89, _⟩ => ⟨S100000x1, .f32⟩
  | .local _ .vmem, ⟨0, _⟩ => ⟨S5000x32, .f32⟩
  | .local _ .vmem, ⟨1, _⟩ => ⟨S5000x32, .f32⟩
  | .local _ .vmem, ⟨2, _⟩ => ⟨S5000x32, .bf16⟩
  | .local _ .vmem, ⟨3, _⟩ => ⟨S5000x32, .bf16⟩
  | .local _ .vmem, ⟨4, _⟩ => ⟨S5000x1, .f32⟩
  | .local _ .vmem, ⟨5, _⟩ => ⟨S5000x1, .f32⟩
  | .local _ .vmem, ⟨6, _⟩ => ⟨S32x64, .f32⟩
  | .local _ .vmem, ⟨7, _⟩ => ⟨S1x64, .f32⟩
  | .local _ .vmem, ⟨8, _⟩ => ⟨S32x64, .f32⟩
  | .local _ .vmem, ⟨9, _⟩ => ⟨S5000x64, .bf16⟩
  | .local _ .vmem, ⟨10, _⟩ => ⟨S5000x64, .bf16⟩
  | .local _ .vmem, ⟨11, _⟩ => ⟨S5000x64, .f32⟩
  | .local _ .vmem, ⟨12, _⟩ => ⟨S5000x64, .f32⟩
  | .local _ .vmem, ⟨13, _⟩ => ⟨S5000x64, .bf16⟩
  | .local _ .vmem, ⟨14, _⟩ => ⟨S5000x64, .bf16⟩
  | .local _ .vmem, ⟨15, _⟩ => ⟨S5000x1, .f32⟩
  | .local _ .vmem, ⟨16, _⟩ => ⟨S5000x1, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S5000x64, .bf16⟩
  | .local _ .vmem, ⟨21, _⟩ => ⟨S5000x64, .bf16⟩
  | .local _ .vmem, ⟨22, _⟩ => ⟨S5000x64, .f32⟩
  | .local _ .vmem, ⟨23, _⟩ => ⟨S5000x64, .f32⟩
  | .local _ .vmem, ⟨24, _⟩ => ⟨S5000x64, .bf16⟩
  | .local _ .vmem, ⟨25, _⟩ => ⟨S5000x64, .bf16⟩
  | .local _ .vmem, ⟨26, _⟩ => ⟨S5000x1, .f32⟩
  | .local _ .vmem, ⟨27, _⟩ => ⟨S5000x1, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S64x64, .f32⟩
  | .local _ .vmem, ⟨32, _⟩ => ⟨S1x64, .f32⟩
  | .local _ .vmem, ⟨33, _⟩ => ⟨S64x1, .f32⟩
  | .local _ .vmem, ⟨34, _⟩ => ⟨S1x1, .f32⟩
  | .local _ .vmem, ⟨35, _⟩ => ⟨S5000x1, .f32⟩
  | .local _ .vmem, ⟨36, _⟩ => ⟨S5000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_cst_3 : Ref sig .tc := ⟨.hbm, 31, rfl⟩
abbrev main_v12 : Ref sig .tc := ⟨.hbm, 32, rfl⟩
abbrev main_v13 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_5 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_6 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_7 : Ref sig .tc := ⟨.hbm, 56, rfl⟩
abbrev main_v30 : Ref sig .tc := ⟨.hbm, 57, rfl⟩
abbrev main_v31 : Ref sig .tc := ⟨.hbm, 58, rfl⟩
abbrev main_c_8 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_10 : Ref sig .tc := ⟨.hbm, 72, rfl⟩
abbrev main_v43 : Ref sig .tc := ⟨.hbm, 73, rfl⟩
abbrev main_v44 : Ref sig .tc := ⟨.hbm, 74, rfl⟩
abbrev main_c_11 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_12 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg10_0 : Ref sig .tc := ⟨.vmem, 35, rfl⟩
abbrev cc2_stg10_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem10_0 : DmaSem sig := 35
abbrev cc2_sem10_1 : DmaSem sig := 36

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x1 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bitsLt_bf16_f32 : FTy.bits .bf16 < FTy.bits .f32
  bcast_S_S100000x32 : S_.BroadcastsInDim S100000x32 (![] : Fin 0 → Fin S100000x32.rank)
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .bf16 = 32 ∨ (Rect.block (s := S100000x32) S5000x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .bf16 = 32 ∨ (Rect.block (s := S100000x64) S5000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .bf16 = 32 ∨ (Rect.block (s := S100000x64) S5000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .bf16 = 32 ∨ (Rect.block (s := S100000x64) S5000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .bf16 = 32 ∨ (Rect.block (s := S100000x64) S5000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x1.size a ≤ S64x1.size a
  hwx2_8 : ∀ i : grid2.Coords, EltTy.bits .f32 = 32 ∨ (Rect.block (s := S64x1) S64x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x1.size a ≤ S100000x1.size a
  hwx2_10 : ∀ i : grid2.Coords, EltTy.bits .f32 = 32 ∨ (Rect.block (s := S100000x1) S5000x1.size (cc2_transform_10 i) (hinb2_10 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v27) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v53) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v55) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg13) S64x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v56) S1x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v57) S5000x1.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S100000x64 : Shape := ⟨2, ![100000, 64]⟩
abbrev S1x64 : Shape := ⟨2, ![1, 64]⟩
abbrev S1600000x64 : Shape := ⟨2, ![1600000, 64]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S32x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64x1, .f32⟩
  | .hbm, ⟨14, _⟩ => ⟨S1, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x32, .f32⟩
  | .hbm, ⟨48, _⟩ => ⟨S_, .f32⟩
  | .hbm, ⟨49, _⟩ => ⟨S100000x32, .f32⟩
  | .hbm, ⟨50, _⟩ => ⟨S1600000x1, .i32⟩
  | .hbm, ⟨51, _⟩ => ⟨S100000x32, .f32⟩
  | .hbm, ⟨52, _⟩ => ⟨S100000x32, .f32⟩
  | .hbm, ⟨53, _⟩ => ⟨S100000x32, .f32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S_, .f32⟩
  | .hbm, ⟨85, _⟩ => ⟨S100000x64, .f32⟩
  | .hbm, ⟨86, _⟩ => ⟨S100000x64, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x64, .f32⟩
  | .hbm, ⟨96, _⟩ => ⟨S_, .f32⟩
  | .hbm, ⟨97, _⟩ => ⟨S100000x64, .f32⟩
  | .hbm, ⟨98, _⟩ => ⟨S1600000x1, .i32⟩
  | .hbm, ⟨99, _⟩ => ⟨S100000x64, .f32⟩
  | .hbm, ⟨100, _⟩ => ⟨S100000x64, .f32⟩
  | .hbm, ⟨101, _⟩ => ⟨S100000x64, .f32⟩
  | .hbm, ⟨102, _⟩ => ⟨S100000x64, .f32⟩
  | .hbm, ⟨103, _⟩ => ⟨S1x64, .f32⟩
  | .hbm, ⟨104, _⟩ => ⟨S100000x64, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S100000x64, .f32⟩
  | .hbm, ⟨109, _⟩ => ⟨S1x64, .f32⟩
  | .hbm, ⟨110, _⟩ => ⟨S100000x64, .f32⟩
  | .hbm, ⟨111, _⟩ => ⟨S100000x64, .f32⟩
  | .hbm, ⟨112, _⟩ => ⟨S_, .f32⟩
  | .hbm, ⟨113, _⟩ => ⟨S100000x64, .f32⟩
  | .hbm, ⟨114, _⟩ => ⟨S100000x64, .f32⟩
  | .hbm, ⟨115, _⟩ => ⟨S100000x1, .f32⟩
  | .hbm, ⟨116, _⟩ => ⟨S1x1, .f32⟩
  | .hbm, ⟨117, _⟩ => ⟨S100000x1, .f32⟩
  | .hbm, ⟨118, _⟩ => ⟨S100000x1, .f32⟩
  | .hbm, ⟨119, _⟩ => ⟨S100000x1, .f32⟩
  | .hbm, ⟨120, _⟩ => ⟨S100000x1, .f32⟩
  | .hbm, ⟨121, _⟩ => ⟨S_, .f32⟩
  | .hbm, ⟨122, _⟩ => ⟨S100000x1, .f32⟩
  | .hbm, ⟨123, _⟩ => ⟨S100000x1, .f32⟩
  | .hbm, ⟨124, _⟩ => ⟨S_, .f32⟩
  | .hbm, ⟨125, _⟩ => ⟨S100000x1, .f32⟩
  | .hbm, ⟨126, _⟩ => ⟨S100000x1, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_cst_3 : Ref sig .tc := ⟨.hbm, 31, rfl⟩
abbrev main_v12 : Ref sig .tc := ⟨.hbm, 32, rfl⟩
abbrev main_v13 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_5 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_6 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_call1_cst : Ref sig .tc := ⟨.hbm, 60, rfl⟩
abbrev main_call1_v0 : Ref sig .tc := ⟨.hbm, 61, rfl⟩
abbrev main_v34 : Ref sig .tc := ⟨.hbm, 62, rfl⟩
abbrev main_c_7 : Ref sig .tc := ⟨.hbm, 63, rfl⟩
abbrev main_v35 : Ref sig .tc := ⟨.hbm, 64, rfl⟩
abbrev main_v36 : Ref sig .tc := ⟨.hbm, 65, rfl⟩
abbrev main_c_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_9 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_call2_cst : Ref sig .tc := ⟨.hbm, 84, rfl⟩
abbrev main_call2_v0 : Ref sig .tc := ⟨.hbm, 85, rfl⟩
abbrev main_v53 : Ref sig .tc := ⟨.hbm, 86, rfl⟩
abbrev main_c_10 : Ref sig .tc := ⟨.hbm, 87, rfl⟩
abbrev main_v54 : Ref sig .tc := ⟨.hbm, 88, rfl⟩
abbrev main_v55 : Ref sig .tc := ⟨.hbm, 89, rfl⟩
abbrev main_c_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_12 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_call3_cst : Ref sig .tc := ⟨.hbm, 112, rfl⟩
abbrev main_call3_v0 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_13 : Ref sig .tc := ⟨.hbm, 121, rfl⟩
abbrev main_v83 : Ref sig .tc := ⟨.hbm, 122, rfl⟩
abbrev main_v84 : Ref sig .tc := ⟨.hbm, 123, rfl⟩
abbrev main_cst_14 : Ref sig .tc := ⟨.hbm, 124, rfl⟩
abbrev main_v85 : Ref sig .tc := ⟨.hbm, 125, rfl⟩
abbrev main_v86 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KRun.lean ====
/-
  The idealized kernel's run with every buffer named.

  @main is eight segments: three stretches of host operations, the first layer's pipeline, a stretch, the second layer's
  pipeline, a stretch, the last pipeline. The contents of the TensorCore's buffers at each boundary are a fold through the
  segments: a host stretch rewrites the buffers its operations write, a pipeline leaves each of its arrays at what its
  write-backs leave and every other buffer as it was. The frame claim only needs that fold at the argument buffers; here
  the run is stated once for EVERY buffer that outlives the program's scopes — the final memory is the fold's last stage —
  and the result buffer and the arguments are then read off it.
-/
import proofs.«124590_j59665685676525_2_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core's final memory holds, buffer by buffer: the last stage of the fold through @main's segments. -/
abbrev EndsAt (c : Dev nD) (s : MemSt nD τ sig (Elt F)) : Prop :=
  ∀ b ∈ Pipeline.ucRefs τ sig, s.mem (((c : Thread nD τ)).1, b) = W8 m ρ c b

set_option backward.isDefEq.respectTransparency.types false in
/-- Every weakly fair execution of @main terminates, nothing faulting, and every unscoped buffer of every core ends at
    the last stage of the fold. The thread state between segments is "every unscoped buffer at the boundary's contents,
    the generator register at some state, nothing owed"; the first state is made from the launch memory and the last is
    read against the final state buffer by buffer. -/
theorem run_all : θ_run defs (onTc (τ := τ) (main (F := F))) ⟨m, fun _ => 0, ρ⟩ (fun r => ∀ c : Dev nD, EndsAt m ρ c r.2) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's ghost state is the pipelines' initial cells, and no core is given anything beside it
      iintro Hown
      imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      · iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl⟩)
    (hinit := by
      -- core by core: the unscoped buffers at the launch memory are the first boundary's contents; the generator
      -- register and the empty debt ride along
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hbufs, -, Howes, -, Hprng, -⟩, -⟩
      imodintro
      isplitl [Hbufs]
      · iexact Hbufs
      isplitl [Hprng]
      · iexists _
        iexact Hprng
      · iexists ∅
        iexact Howes)
    (QY := fun c s => EndsAt m ρ c s)
    (hfin := fun c s' => by
      -- holding every unscoped buffer at the last contents, the final state has those contents there
      iintro ⟨⟨Hbufs, -⟩, Hstate⟩
      unfold StableHlo.held
      imodintro
      iapply (pointsTo_read_all (Pipeline.ucRefs τ sig) (fun b => (((c : Thread nD τ)).1, b)) (W8 m ρ c) s')
      isplitl [Hbufs] <;> iassumption)
    (hQ := fun s h => h)

/-- The run with the result named: the result buffer ends at the fold's last stage there, and every argument ends as
    launched (no host operation and no pipeline writes an argument). -/
theorem run_result : θ_run defs (onTc (τ := τ) (main (F := F))) ⟨m, fun _ => 0, ρ⟩ (fun r => ∀ c : Dev nD,
      r.2.mem ((c.tc : Thread nD τ).loc main_v57) = W8 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v57 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c)⟩)
    (run_all m ρ)

end Cert.KernelIdeal.RunAll

end
-- ==== Proof.LibFormats.lean ====
/-
  At the ideal values a change of float format is the identity: a float of any format is an extended real and both
  roundings are the identity on it. Stated for whole arrays, so that a composed host term sheds its format changes by
  rewriting.
-/
import Idealize.ShloMosaic.PureOps.Ideal
import Idealize.ShloMosaic.Lib.ValueIdx

noncomputable section

namespace Cert.LibFormats

open Idealize.ShloMosaic

/-- Rounding an array to a narrower format leaves it as it was. -/
theorem truncf_eq {s : Shape} {φ ψ : FTy} (x : FVec Ideal s φ) (h : ψ.bits < φ.bits) :
    (truncf ψ x h : FVec Ideal s ψ) = x := rfl

/-- Widening an array to a wider format leaves it as it was. -/
theorem extf_eq {s : Shape} {φ ψ : FTy} (x : FVec Ideal s φ) (h : φ.bits < ψ.bits) :
    (extf ψ x h : FVec Ideal s ψ) = x := rfl

end Cert.LibFormats

end
-- ==== Proof.SageRow.lean ====
/-
  One layer of mean-aggregation message passing, and the predictor head, as plain sums over the extended reals.

  A layer maps a row of aggregated neighbour features `a`, the node's own row `h`, the reciprocal in-degree `s`, two weight
  matrices and a bias to  Σₖ (aₖ·s)·Wnₖ + Σₖ hₖ·Wrₖ + b.  One program adds the bias after the first product and the second
  product last; the other adds the two products first and the bias last. Addition of extended reals is commutative and
  associative (−∞ absorbs), so the two groupings agree with no finiteness assumption.
-/
import Idealize.ShloMosaic.PureOps.Ideal
import Idealize.ShloMosaic.Lib.ValueIdx
import Idealize.ShloMosaic.PureOps.Ideal.Laws

noncomputable section

open scoped BigOperators

namespace Cert.Sage

open Idealize.ShloMosaic Idealize.ShloMosaic.ValueIdx

/-- A row of a layer before the activation, the two matrix products added first and the bias last. -/
def rowSum {d : Nat} (a h : Fin d → EReal) (s : EReal) (wn wr : Fin d → EReal) (b : EReal) : EReal :=
  ((∑ k, (a k * s) * wn k) + ∑ k, h k * wr k) + b

/-- The same row with the bias added to the first product and the second product last. -/
theorem rowSum_bias_first {d : Nat} (a h : Fin d → EReal) (s : EReal) (wn wr : Fin d → EReal) (b : EReal) :
    ((∑ k, (a k * s) * wn k) + b) + ∑ k, h k * wr k = rowSum a h s wn wr b :=
  add_right_comm _ _ _

/-- A dense row: Σₖ xₖ·Wₖ + b. -/
def dense {d : Nat} (x w : Fin d → EReal) (b : EReal) : EReal := (∑ k, x k * w k) + b

/-- The logistic function of an extended real is 1 / (1 + e^(−x)), the quotient and the exponential read with their
    conventions at the infinities. -/
theorem logistic_eq (x : EReal) : Ideal.logistic x = Ideal.div 1 (1 + Ideal.exp (-x)) := rfl

end Cert.Sage

end
-- ==== Proof.LibLayout.lean ====
/-
  Two small facts about arrays read at an index, general in the extents.
-/
import Idealize.ShloMosaic.PureOps.Ideal
import Idealize.ShloMosaic.Lib.ValueIdx
import Idealize.ShloMosaic.Lib.Pipeline.Value
import Idealize.ShloMosaic.PureOps.Ideal.Laws

noncomputable section

namespace Cert.LibLayout

open Idealize.ShloMosaic Idealize.ShloMosaic.ValueIdx

/-- A column broadcast along the rows: an `[a, 1]` array broadcast to `[a, b]` reads, at `(p, c)`, row `p`'s one entry
    (the companion of the library's one-row broadcast `[1, b] → [a, b]`). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The single-precision word of 1.0 denotes the extended real 1. -/
theorem ofBits_one_f32 : Ideal.ofBits .f32 0x3F800000#32 = 1 := by
  simp [Ideal.ofBits, Ideal.ieee, -EReal.coe_mul]; norm_num

end Cert.LibLayout

end
-- ==== Proof.MatMul.lean ====
/-
  The kernels' matrix products read at an entry.

  At the ideal values a matrix product of a [5000, K] block and a [K, n] matrix into a zero accumulator is, at entry
  (r, c), the plain sum over the contracted axis  Σₖ a[r,k]·w[k,c]  — no rounding and no order of accumulation left in it.
  The contraction index of the printed dimension numbers has one axis; the sum is re-indexed by that axis's coordinate,
  and the operand indices at output entry (r, c) and contraction coordinate k are (r, k) and (k, c).
-/
import proofs.«124590_j59665685676525_2_alg».proof.Proof.Gen.KernelIdeal
import Idealize.ShloMosaic.Lib.ValueIdx
import Idealize.ShloMosaic.PureOps.Ideal.Laws

noncomputable section

open scoped BigOperators

namespace Cert.KernelIdeal.MatMul

open Cert.KernelIdeal Cert.KernelIdeal.Gen Idealize.ShloMosaic Idealize.ShloMosaic.ValueIdx

/-! ### S5000x32 × S32x64 -/

theorem mm32_lhs0 (i : S5000x64.Idx) (q : dot_S5000x32_S32x64_S5000x64_1_0_0_1_n_n.contr.Idx) : (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem mm32_rhs1 (i : S5000x64.Idx) (q : dot_S5000x32_S32x64_S5000x64_1_0_0_1_n_n.contr.Idx) : (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

theorem mm32_apply {φ₁ φ₂ : FTy} (a : FVec Ideal S5000x32 φ₁) (w : FVec Ideal S32x64 φ₂) (r : Fin 5000) (c : Fin 64) :
    matmul dot_S5000x32_S32x64_S5000x64_1_0_0_1_n_n none a w (constant S5000x64 .f32 0x00000000#32) (ix2 r c) = ∑ k : Fin 32, a (ix2 r k) * w (ix2 k c) := by
  simp only [matmul]
  rw [Ideal.matmul_constant_zero_apply, ← Equiv.sum_comp (contrEquiv1 dot_S5000x32_S32x64_S5000x64_1_0_0_1_n_n 32 rfl rfl).symm]
  refine Finset.sum_congr rfl fun k _ => ?_
  have hk := contrEquiv1_symm_val dot_S5000x32_S32x64_S5000x64_1_0_0_1_n_n 32 rfl rfl k
  have el : dot_S5000x32_S32x64_S5000x64_1_0_0_1_n_n.lhsIdx (ix2 r c) ((contrEquiv1 dot_S5000x32_S32x64_S5000x64_1_0_0_1_n_n 32 rfl rfl).symm k) = ix2 r k := funext fun a => Fin.ext (by
    match a with
    | ⟨0, _⟩ => exact mm32_lhs0 _ _
    | ⟨1, _⟩ => exact (dot_S5000x32_S32x64_S5000x64_1_0_0_1_n_n.lhsIdx_val_of_single rfl _ _).trans hk)
  have er : dot_S5000x32_S32x64_S5000x64_1_0_0_1_n_n.rhsIdx (ix2 r c) ((contrEquiv1 dot_S5000x32_S32x64_S5000x64_1_0_0_1_n_n 32 rfl rfl).symm k) = ix2 k c := funext fun a => Fin.ext (by
    match a with
    | ⟨0, _⟩ => exact (dot_S5000x32_S32x64_S5000x64_1_0_0_1_n_n.rhsIdx_val_of_single rfl _ _).trans hk
    | ⟨1, _⟩ => exact mm32_rhs1 _ _)
  rw [el, er]

/-! ### S5000x64 × S64x64 -/

theorem mm64_lhs0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem mm64_rhs1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem mm64_apply {φ₁ φ₂ : FTy} (a : FVec Ideal S5000x64 φ₁) (w : FVec Ideal S64x64 φ₂) (r : Fin 5000) (c : Fin 64) :
    matmul dot_S5000x64_S64x64_S5000x64_1_0_0_1_n_n none a w (constant S5000x64 .f32 0x00000000#32) (ix2 r c) = ∑ k : Fin 64, a (ix2 r k) * w (ix2 k c) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r c) ((contrEquiv1 dot_S5000x64_S64x64_S5000x64_1_0_0_1_n_n 64 rfl rfl).symm k) = ix2 r k := funext fun a => Fin.ext (by
    match a with
    | ⟨0, _⟩ => exact mm64_lhs0 _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 r c) ((contrEquiv1 dot_S5000x64_S64x64_S5000x64_1_0_0_1_n_n 64 rfl rfl).symm k) = ix2 k c := funext fun a => Fin.ext (by
    match a with
    | ⟨0, _⟩ => exact (dot_S5000x64_S64x64_S5000x64_1_0_0_1_n_n.rhsIdx_val_of_single rfl _ _).trans hk
    | ⟨1, _⟩ => exact mm64_rhs1 _ _)
  rw [el, er]

/-! ### S5000x64 × S64x1 -/

theorem mm64x1_lhs0 (i : S5000x1.Idx) (q : dot_S5000x64_S64x1_S5000x1_1_0_0_1_n_n.contr.Idx) : (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem mm64x1_rhs1 (i : S5000x1.Idx) (q : dot_S5000x64_S64x1_S5000x1_1_0_0_1_n_n.contr.Idx) : (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

theorem mm64x1_apply {φ₁ φ₂ : FTy} (a : FVec Ideal S5000x64 φ₁) (w : FVec Ideal S64x1 φ₂) (r : Fin 5000) (c : Fin 1) :
    matmul dot_S5000x64_S64x1_S5000x1_1_0_0_1_n_n none a w (constant S5000x1 .f32 0x00000000#32) (ix2 r c) = ∑ k : Fin 64, a (ix2 r k) * w (ix2 k c) := by
  simp only [matmul]
  rw [Ideal.matmul_constant_zero_apply, ← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 r c) ((contrEquiv1 dot_S5000x64_S64x1_S5000x1_1_0_0_1_n_n 64 rfl rfl).symm k) = ix2 r k := funext fun a => Fin.ext (by
    match a with
    | ⟨0, _⟩ => exact mm64x1_lhs0 _ _
    | ⟨1, _⟩ => exact (dot_S5000x64_S64x1_S5000x1_1_0_0_1_n_n.lhsIdx_val_of_single rfl _ _).trans hk)
  have er : dot_S5000x64_S64x1_S5000x1_1_0_0_1_n_n.rhsIdx (ix2 r c) ((contrEquiv1 dot_S5000x64_S64x1_S5000x1_1_0_0_1_n_n 64 rfl rfl).symm k) = ix2 k c := funext fun a => Fin.ext (by
    match a with
    | ⟨0, _⟩ => exact (dot_S5000x64_S64x1_S5000x1_1_0_0_1_n_n.rhsIdx_val_of_single rfl _ _).trans hk
    | ⟨1, _⟩ => exact mm64x1_rhs1 _ _)
  rw [el, er]

end Cert.KernelIdeal.MatMul

end
-- ==== Proof.Layer0.lean ====
/-
  The first layer's pipeline, closed: the output array after the pipeline's twenty grid points is ONE function of the six
  operand arrays as the region finds them.

  A grid point `t` works on rows 5000·t … 5000·t + 4999: it reads those rows of the aggregated features, of the node
  features and of the reciprocal in-degrees, and the whole of the two weight matrices and the bias row; it writes the same
  rows of the output. An entry (r, c) of the block it writes is
      max( Σₖ (agg[r,k]·inv[r])·Wn[k,c] + Σₖ h[r,k]·Wr[k,c] + b[c], 0 )
  at the ideal values: both matrix products are plain sums over the contracted axis, and the roundings to the narrow
  format on the way into them are the identity. The blocks of the twenty points tile the output array (row R belongs to
  point R / 5000), so the array ends holding that function at every entry.
-/
import proofs.«124590_j59665685676525_2_alg».proof.Proof.Gen.KernelIdeal.Frame
import proofs.«124590_j59665685676525_2_alg».proof.Proof.SageRow
import proofs.«124590_j59665685676525_2_alg».proof.Proof.LibLayout
import proofs.«124590_j59665685676525_2_alg».proof.Proof.MatMul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Layer0

open Cert.KernelIdeal Cert.KernelIdeal.Gen Idealize.ShloMosaic Idealize.ShloMosaic.TcCoe Idealize.ShloMosaic.ValueIdx Cert.Sage Cert.LibLayout Cert.KernelIdeal.MatMul

/-- The body's stored value at entry (r, c) of the block, from the six loaded blocks. -/
theorem pay_apply (v0 : Vec Ideal S5000x32 .f32) (v2 : Vec Ideal S5000x1 .f32) (v7 : Vec Ideal S5000x32 .bf16) (v9 v11 : Vec Ideal S32x64 .f32)
    (v16 : Vec Ideal S1x64 .f32) (r : Fin 5000) (c : Fin 64) :
    k0_pay1 (F := Ideal) v0 v2 v7 v9 v11 v16 (ix2 r c)
      = max (rowSum (fun k : Fin 32 => v0 (ix2 r k)) (fun k => v7 (ix2 r k)) (v2 (ix2 r 0)) (fun k => v9 (ix2 k c)) (fun k => v11 (ix2 k c)) (v16 (ix2 0 c))) 0 := by
  unfold k0_pay1
  simp only [shapeCast_self]
  rw [truncf_apply, maximumf_apply, addf_apply, addf_apply, broadcast_apply, mm32_apply, mm32_apply, broadcastTo_1b_ab_apply]
  show max _ (Ideal.ofBits .f32 0x00000000#32) = _
  rw [Ideal.ofBits_zero_f32]
  unfold rowSum
  simp only [truncf_apply, mulf_apply, broadcastTo_a1_ab_apply]

/-- The layer's output at row `r`, column `c`, from the six operand arrays. -/
def outAt (agg h : S100000x32.Idx → EReal) (inv : S100000x1.Idx → EReal) (wn : S32x64.Idx → EReal) (bn : S1x64.Idx → EReal)
    (wr : S32x64.Idx → EReal) (r : Fin 100000) (c : Fin 64) : EReal :=
  max (rowSum (fun k : Fin 32 => agg (ix2 r k)) (fun k => h (ix2 r k)) (inv (ix2 r 0)) (fun k => wn (ix2 k c)) (fun k => wr (ix2 k c)) (bn (ix2 0 c))) 0

/-- The layer's output array as one function of the six operand arrays. -/
def out (agg h : S100000x32.Idx → EReal) (inv : S100000x1.Idx → EReal) (wn : S32x64.Idx → EReal) (bn : S1x64.Idx → EReal)
    (wr : S32x64.Idx → EReal) : S100000x64.Idx → EReal := fun i => outAt agg h inv wn bn wr (i 0) (i 1)

theorem hz : (![0, 0] : Fin 2 → Nat) = fun _ => 0 := funext fun a => by fin_cases a <;> rfl

/-- The printed index maps, decided over the twenty grid points: the three row-blocked operands and the output sit at
    block (t, 0), the weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-! Each input block read at an entry is the operand array at the matching entry: row `r` of point `t`'s block is row
    5000·t + r of the array; the weight and bias blocks are the whole arrays. -/

theorem blk0 (c : Dev nD) (t : Fin cfg0.N) (r : Fin 5000) (k : Fin 32) (R : Fin 100000) (hR : R.val = t.val * 5000 + r.val) :
    iblk0 V c 0 t (ix2 r k) = V c main_v27 (ix2 R k) := by
  show V c main_v27 (((cfg0.win 0).blk t).view.emb (ix2 r k)) = V c main_v27 (ix2 R k)
  refine congrArg _ (funext fun a => Fin.ext ?_)
  obtain ⟨e0, e1, -⟩ := idx_facts t
  match a with
  | ⟨0, _⟩ => show win0_0.index t (0 : Fin 2) * 5000 + 1 * r.val = R.val; omega
  | ⟨1, _⟩ => show win0_0.index t (1 : Fin 2) * 32 + 1 * k.val = k.val; omega

theorem blk1 (c : Dev nD) (t : Fin cfg0.N) (r : Fin 5000) (k : Fin 32) (R : Fin 100000) (hR : R.val = t.val * 5000 + r.val) :
    iblk0 V c 1 t (ix2 r k) = V c main_v16 (ix2 R k) := by
  show V c main_v16 (((cfg0.win 1).blk t).view.emb (ix2 r k)) = V c main_v16 (ix2 R k)
  refine congrArg _ (funext fun a => Fin.ext ?_)
  obtain ⟨-, -, e0, e1, -⟩ := idx_facts t
  match a with
  | ⟨0, _⟩ => show win0_1.index t (0 : Fin 2) * 5000 + 1 * r.val = R.val; omega
  | ⟨1, _⟩ => show win0_1.index t (1 : Fin 2) * 32 + 1 * k.val = k.val; omega

theorem blk2 (c : Dev nD) (t : Fin cfg0.N) (r : Fin 5000) (R : Fin 100000) (hR : R.val = t.val * 5000 + r.val) :
    iblk0 V c 2 t (ix2 r 0) = V c main_v15 (ix2 R 0) := by
  show V c main_v15 (((cfg0.win 2).blk t).view.emb (ix2 r 0)) = V c main_v15 (ix2 R 0)
  refine congrArg _ (funext fun a => Fin.ext ?_)
  obtain ⟨-, -, -, -, e0, e1, -⟩ := idx_facts t
  match a with
  | ⟨0, _⟩ => show win0_2.index t (0 : Fin 2) * 5000 + 1 * r.val = R.val; omega
  | ⟨1, _⟩ => show win0_2.index t (1 : Fin 2) * 1 + 1 * 0 = 0; omega

theorem blk3 (c : Dev nD) (t : Fin cfg0.N) (k : Fin 32) (j : Fin 64) : iblk0 V c 3 t (ix2 k j) = V c main_arg2 (ix2 k j) := by
  show V c main_arg2 (((cfg0.win 3).blk t).view.emb (ix2 k j)) = V c main_arg2 (ix2 k j)
  refine congrArg _ (funext fun a => Fin.ext ?_)
  obtain ⟨-, -, -, -, -, -, e0, e1, -⟩ := idx_facts t
  match a with
  | ⟨0, _⟩ => show win0_3.index t (0 : Fin 2) * 32 + 1 * k.val = k.val; omega
  | ⟨1, _⟩ => show win0_3.index t (1 : Fin 2) * 64 + 1 * j.val = j.val; omega

theorem blk4 (c : Dev nD) (t : Fin cfg0.N) (j : Fin 64) : iblk0 V c 4 t (ix2 0 j) = V c main_v28 (ix2 0 j) := by
  show V c main_v28 (((cfg0.win 4).blk t).view.emb (ix2 0 j)) = V c main_v28 (ix2 0 j)
  refine congrArg _ (funext fun a => Fin.ext ?_)
  obtain ⟨-, -, -, -, -, -, -, -, e0, e1, -⟩ := idx_facts t
  match a with
  | ⟨0, _⟩ => show win0_4.index t (0 : Fin 2) * 1 + 1 * 0 = 0; omega
  | ⟨1, _⟩ => show win0_4.index t (1 : Fin 2) * 64 + 1 * j.val = j.val; omega

theorem blk5 (c : Dev nD) (t : Fin cfg0.N) (k : Fin 32) (j : Fin 64) : iblk0 V c 5 t (ix2 k j) = V c main_arg4 (ix2 k j) := by
  show V c main_arg4 (((cfg0.win 5).blk t).view.emb (ix2 k j)) = V c main_arg4 (ix2 k j)
  refine congrArg _ (funext fun a => Fin.ext ?_)
  obtain ⟨-, -, -, -, -, -, -, -, -, -, e0, e1, -⟩ := idx_facts t
  match a with
  | ⟨0, _⟩ => show win0_5.index t (0 : Fin 2) * 32 + 1 * k.val = k.val; omega
  | ⟨1, _⟩ => show win0_5.index t (1 : Fin 2) * 64 + 1 * j.val = j.val; omega

/-- What grid point `t` writes back is block `t` of `out` of the operand arrays as the region finds them. -/
theorem flushed_eq (c : Dev nD) (t : Fin cfg0.N) :
    (dat0 (F := Ideal) V c).flushed 6 t = ((cfg0.win 6).blk t).view.read (Elt Ideal)
      (out (V c main_v27) (V c main_v16) (V c main_v15) (V c main_arg2) (V c main_v28) (V c main_arg4)) := by
  show (cfg0.win 6).cut (grid0.coords t) ((dat0 V c).after 6 t) = _
  rw [after0_6]
  unfold out0_6
  rw [View.canon_unit_zero hz]
  simp only [View.ld_unit_zero (S := S5000x32) hz, View.ld_unit_zero (S := S5000x1) hz, View.ld_unit_zero (S := S32x64) hz, View.ld_unit_zero (S := S1x64) hz]
  funext j
  obtain ⟨r, c', rfl⟩ : ∃ (r : Fin 5000) (c' : Fin 64), j = ix2 r c' := ⟨j 0, j 1, eq_ix2 j⟩
  have ht : t.val < 20 := t.isLt
  have hR : t.val * 5000 + r.val < 100000 := by have := r.isLt; omega
  obtain ⟨-, -, -, -, -, -, -, -, -, -, -, -, e0, e1⟩ := idx_facts t
  have he : ((cfg0.win 6).blk t).view.emb (ix2 r c') = ix2 (⟨t.val * 5000 + r.val, hR⟩ : Fin 100000) c' := funext fun a => Fin.ext (by
    match a with
    | ⟨0, _⟩ => show win0_6.index t (0 : Fin 2) * 5000 + 1 * r.val = t.val * 5000 + r.val; omega
    | ⟨1, _⟩ => show win0_6.index t (1 : Fin 2) * 64 + 1 * c'.val = c'.val; omega)
  show k0_pay1 (iblk0 V c 0 t) (iblk0 V c 2 t) (iblk0 V c 1 t) (iblk0 V c 3 t) (iblk0 V c 5 t) (iblk0 V c 4 t) (ix2 r c')
    = out (V c main_v27) (V c main_v16) (V c main_v15) (V c main_arg2) (V c main_v28) (V c main_arg4) (((cfg0.win 6).blk t).view.emb (ix2 r c'))
  rw [he]
  refine (pay_apply (iblk0 V c 0 t) (iblk0 V c 2 t) (iblk0 V c 1 t) (iblk0 V c 3 t) (iblk0 V c 5 t) (iblk0 V c 4 t) r c').trans ?_
  show _ = outAt (V c main_v27) (V c main_v16) (V c main_v15) (V c main_arg2) (V c main_v28) (V c main_arg4) ⟨t.val * 5000 + r.val, hR⟩ c'
  unfold outAt
  rw [funext fun k => blk0 V c t r k ⟨t.val * 5000 + r.val, hR⟩ rfl, funext fun k => blk1 V c t r k ⟨t.val * 5000 + r.val, hR⟩ rfl,
    blk2 V c t r ⟨t.val * 5000 + r.val, hR⟩ rfl, funext fun k => blk3 V c t k c', funext fun k => blk5 V c t k c', blk4 V c t c']

/-- An entry of the output array is in point `t`'s block iff each coordinate is in the block's range on its axis. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v29).slice (win0_6.rect t)).set ↔ _
  rw [View.set_slice_whole, Rect.mem_set_unit]
  exact Iff.rfl

/-- Every entry of the output array is in some point's block: row `R` in point `R / 5000`'s. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  refine ⟨⟨(i 0).val / 5000, by show (i 0).val / 5000 < 20; omega⟩, flush0_6 _, ?_⟩
  rw [mem_blk]
  obtain ⟨-, -, -, -, -, -, -, -, -, -, -, -, e0, e1⟩ := idx_facts ⟨(i 0).val / 5000, by show (i 0).val / 5000 < 20; omega⟩
  intro a
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 64 ≤ (i 1).val ∧ (i 1).val < win0_6.index _ (1 : Fin 2) * 64 + 64
    rw [e1]; omega

/-- The output array after the pipeline is `out` of the six operand arrays as the region finds them. -/
theorem final (c : Dev nD) : (dat0 (F := Ideal) V c).arrAt 6 cfg0.N
    = out (V c main_v27) (V c main_v16) (V c main_v15) (V c main_arg2) (V c main_v28) (V c main_arg4) :=
  (dat0 V c).arrAt_eq_of_cover 6 _ (fun t _ => flushed_eq V c t) cover

end Cert.KernelIdeal.Layer0

end
-- ==== Proof.Layer1.lean ====
/-
  The second layer's pipeline, closed: the output array after the pipeline's twenty grid points is ONE function of the six
  operand arrays as the region finds them.

  A grid point `t` works on rows 5000·t … 5000·t + 4999: it reads those rows of the aggregated features, of the node
  features and of the reciprocal in-degrees, and the whole of the two weight matrices and the bias row; it writes the same
  rows of the output. An entry (r, c) of the block it writes is
      max( Σₖ (agg[r,k]·inv[r])·Wn[k,c] + Σₖ h[r,k]·Wr[k,c] + b[c], 0 )
  at the ideal values: both matrix products are plain sums over the contracted axis, and the roundings to the narrow
  format on the way into them are the identity. The blocks of the twenty points tile the output array (row R belongs to
  point R / 5000), so the array ends holding that function at every entry.
-/
import proofs.«124590_j59665685676525_2_alg».proof.Proof.Gen.KernelIdeal.Frame
import proofs.«124590_j59665685676525_2_alg».proof.Proof.SageRow
import proofs.«124590_j59665685676525_2_alg».proof.Proof.LibLayout
import proofs.«124590_j59665685676525_2_alg».proof.Proof.MatMul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Layer1

open Cert.KernelIdeal Cert.KernelIdeal.Gen Idealize.ShloMosaic Idealize.ShloMosaic.TcCoe Idealize.ShloMosaic.ValueIdx Cert.Sage Cert.LibLayout Cert.KernelIdeal.MatMul

/-- The body's stored value at entry (r, c) of the block, from the six loaded blocks. -/
theorem pay_apply (v0 : Vec Ideal S5000x64 .f32) (v2 : Vec Ideal S5000x1 .f32) (v7 : Vec Ideal S5000x64 .bf16) (v9 v11 : Vec Ideal S64x64 .f32)
    (v16 : Vec Ideal S1x64 .f32) (r : Fin 5000) (c : Fin 64) :
    k1_pay1 (F := Ideal) v0 v2 v7 v9 v11 v16 (ix2 r c)
      = max (rowSum (fun k : Fin 64 => v0 (ix2 r k)) (fun k => v7 (ix2 r k)) (v2 (ix2 r 0)) (fun k => v9 (ix2 k c)) (fun k => v11 (ix2 k c)) (v16 (ix2 0 c))) 0 := by
  unfold k1_pay1
  simp only [shapeCast_self]
  rw [truncf_apply, maximumf_apply, addf_apply, addf_apply, broadcast_apply, mm64_apply, mm64_apply, broadcastTo_1b_ab_apply]
  show max _ (Ideal.ofBits .f32 0x00000000#32) = _
  rw [Ideal.ofBits_zero_f32]
  unfold rowSum
  simp only [truncf_apply, mulf_apply, broadcastTo_a1_ab_apply]

/-- The layer's output at row `r`, column `c`, from the six operand arrays. -/
def outAt (agg h : S100000x64.Idx → EReal) (inv : S100000x1.Idx → EReal) (wn : S64x64.Idx → EReal) (bn : S1x64.Idx → EReal)
    (wr : S64x64.Idx → EReal) (r : Fin 100000) (c : Fin 64) : EReal :=
  max (rowSum (fun k : Fin 64 => agg (ix2 r k)) (fun k => h (ix2 r k)) (inv (ix2 r 0)) (fun k => wn (ix2 k c)) (fun k => wr (ix2 k c)) (bn (ix2 0 c))) 0

/-- The layer's output array as one function of the six operand arrays. -/
def out (agg h : S100000x64.Idx → EReal) (inv : S100000x1.Idx → EReal) (wn : S64x64.Idx → EReal) (bn : S1x64.Idx → EReal)
    (wr : S64x64.Idx → EReal) : S100000x64.Idx → EReal := fun i => outAt agg h inv wn bn wr (i 0) (i 1)

theorem hz : (![0, 0] : Fin 2 → Nat) = fun _ => 0 := funext fun a => by fin_cases a <;> rfl

/-- The printed index maps, decided over the twenty grid points: the three row-blocked operands and the output sit at
    block (t, 0), the weights and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-! Each input block read at an entry is the operand array at the matching entry: row `r` of point `t`'s block is row
    5000·t + r of the array; the weight and bias blocks are the whole arrays. -/

theorem blk0 (c : Dev nD) (t : Fin cfg1.N) (r : Fin 5000) (k : Fin 64) (R : Fin 100000) (hR : R.val = t.val * 5000 + r.val) :
    iblk1 V c 0 t (ix2 r k) = V c main_v40 (ix2 R k) := by
  show V c main_v40 (((cfg1.win 0).blk t).view.emb (ix2 r k)) = V c main_v40 (ix2 R k)
  refine congrArg _ (funext fun a => Fin.ext ?_)
  obtain ⟨e0, e1, -⟩ := idx_facts t
  match a with
  | ⟨0, _⟩ => show win1_0.index t (0 : Fin 2) * 5000 + 1 * r.val = R.val; omega
  | ⟨1, _⟩ => show win1_0.index t (1 : Fin 2) * 64 + 1 * k.val = k.val; omega

theorem blk1 (c : Dev nD) (t : Fin cfg1.N) (r : Fin 5000) (k : Fin 64) (R : Fin 100000) (hR : R.val = t.val * 5000 + r.val) :
    iblk1 V c 1 t (ix2 r k) = V c main_v29 (ix2 R k) := by
  show V c main_v29 (((cfg1.win 1).blk t).view.emb (ix2 r k)) = V c main_v29 (ix2 R k)
  refine congrArg _ (funext fun a => Fin.ext ?_)
  obtain ⟨-, -, e0, e1, -⟩ := idx_facts t
  match a with
  | ⟨0, _⟩ => show win1_1.index t (0 : Fin 2) * 5000 + 1 * r.val = R.val; omega
  | ⟨1, _⟩ => show win1_1.index t (1 : Fin 2) * 64 + 1 * k.val = k.val; omega

theorem blk2 (c : Dev nD) (t : Fin cfg1.N) (r : Fin 5000) (R : Fin 100000) (hR : R.val = t.val * 5000 + r.val) :
    iblk1 V c 2 t (ix2 r 0) = V c main_v15 (ix2 R 0) := by
  show V c main_v15 (((cfg1.win 2).blk t).view.emb (ix2 r 0)) = V c main_v15 (ix2 R 0)
  refine congrArg _ (funext fun a => Fin.ext ?_)
  obtain ⟨-, -, -, -, e0, e1, -⟩ := idx_facts t
  match a with
  | ⟨0, _⟩ => show win1_2.index t (0 : Fin 2) * 5000 + 1 * r.val = R.val; omega
  | ⟨1, _⟩ => show win1_2.index t (1 : Fin 2) * 1 + 1 * 0 = 0; omega

theorem blk3 (c : Dev nD) (t : Fin cfg1.N) (k : Fin 64) (j : Fin 64) : iblk1 V c 3 t (ix2 k j) = V c main_arg5 (ix2 k j) := by
  show V c main_arg5 (((cfg1.win 3).blk t).view.emb (ix2 k j)) = V c main_arg5 (ix2 k j)
  refine congrArg _ (funext fun a => Fin.ext ?_)
  obtain ⟨-, -, -, -, -, -, e0, e1, -⟩ := idx_facts t
  match a with
  | ⟨0, _⟩ => show win1_3.index t (0 : Fin 2) * 64 + 1 * k.val = k.val; omega
  | ⟨1, _⟩ => show win1_3.index t (1 : Fin 2) * 64 + 1 * j.val = j.val; omega

theorem blk4 (c : Dev nD) (t : Fin cfg1.N) (j : Fin 64) : iblk1 V c 4 t (ix2 0 j) = V c main_v41 (ix2 0 j) := by
  show V c main_v41 (((cfg1.win 4).blk t).view.emb (ix2 0 j)) = V c main_v41 (ix2 0 j)
  refine congrArg _ (funext fun a => Fin.ext ?_)
  obtain ⟨-, -, -, -, -, -, -, -, e0, e1, -⟩ := idx_facts t
  match a with
  | ⟨0, _⟩ => show win1_4.index t (0 : Fin 2) * 1 + 1 * 0 = 0; omega
  | ⟨1, _⟩ => show win1_4.index t (1 : Fin 2) * 64 + 1 * j.val = j.val; omega

theorem blk5 (c : Dev nD) (t : Fin cfg1.N) (k : Fin 64) (j : Fin 64) : iblk1 V c 5 t (ix2 k j) = V c main_arg7 (ix2 k j) := by
  show V c main_arg7 (((cfg1.win 5).blk t).view.emb (ix2 k j)) = V c main_arg7 (ix2 k j)
  refine congrArg _ (funext fun a => Fin.ext ?_)
  obtain ⟨-, -, -, -, -, -, -, -, -, -, e0, e1, -⟩ := idx_facts t
  match a with
  | ⟨0, _⟩ => show win1_5.index t (0 : Fin 2) * 64 + 1 * k.val = k.val; omega
  | ⟨1, _⟩ => show win1_5.index t (1 : Fin 2) * 64 + 1 * j.val = j.val; omega

/-- What grid point `t` writes back is block `t` of `out` of the operand arrays as the region finds them. -/
theorem flushed_eq (c : Dev nD) (t : Fin cfg1.N) :
    (dat1 (F := Ideal) V c).flushed 6 t = ((cfg1.win 6).blk t).view.read (Elt Ideal)
      (out (V c main_v40) (V c main_v29) (V c main_v15) (V c main_arg5) (V c main_v41) (V c main_arg7)) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz, View.ld_unit_zero (S := S64x64) hz, View.ld_unit_zero (S := S1x64) hz]
  funext j
  obtain ⟨r, c', rfl⟩ : ∃ (r : Fin 5000) (c' : Fin 64), j = ix2 r c' := ⟨j 0, j 1, eq_ix2 j⟩
  have ht : t.val < 20 := t.isLt
  have hR : t.val * 5000 + r.val < 100000 := by have := r.isLt; omega
  obtain ⟨-, -, -, -, -, -, -, -, -, -, -, -, e0, e1⟩ := idx_facts t
  have he : ((cfg1.win 6).blk t).view.emb (ix2 r c') = ix2 (⟨t.val * 5000 + r.val, hR⟩ : Fin 100000) c' := funext fun a => Fin.ext (by
    match a with
    | ⟨0, _⟩ => show win1_6.index t (0 : Fin 2) * 5000 + 1 * r.val = t.val * 5000 + r.val; omega
    | ⟨1, _⟩ => show win1_6.index t (1 : Fin 2) * 64 + 1 * c'.val = c'.val; omega)
  show k1_pay1 (iblk1 V c 0 t) (iblk1 V c 2 t) (iblk1 V c 1 t) (iblk1 V c 3 t) (iblk1 V c 5 t) (iblk1 V c 4 t) (ix2 r c')
    = out (V c main_v40) (V c main_v29) (V c main_v15) (V c main_arg5) (V c main_v41) (V c main_arg7) (((cfg1.win 6).blk t).view.emb (ix2 r c'))
  rw [he]
  refine (pay_apply (iblk1 V c 0 t) (iblk1 V c 2 t) (iblk1 V c 1 t) (iblk1 V c 3 t) (iblk1 V c 5 t) (iblk1 V c 4 t) r c').trans ?_
  show _ = outAt (V c main_v40) (V c main_v29) (V c main_v15) (V c main_arg5) (V c main_v41) (V c main_arg7) ⟨t.val * 5000 + r.val, hR⟩ c'
  unfold outAt
  rw [funext fun k => blk0 V c t r k ⟨t.val * 5000 + r.val, hR⟩ rfl, funext fun k => blk1 V c t r k ⟨t.val * 5000 + r.val, hR⟩ rfl,
    blk2 V c t r ⟨t.val * 5000 + r.val, hR⟩ rfl, funext fun k => blk3 V c t k c', funext fun k => blk5 V c t k c', blk4 V c t c']

/-- An entry of the output array is in point `t`'s block iff each coordinate is in the block's range on its axis. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v42).slice (win1_6.rect t)).set ↔ _
  rw [View.set_slice_whole, Rect.mem_set_unit]
  exact Iff.rfl

/-- Every entry of the output array is in some point's block: row `R` in point `R / 5000`'s. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  refine ⟨⟨(i 0).val / 5000, by show (i 0).val / 5000 < 20; omega⟩, flush1_6 _, ?_⟩
  rw [mem_blk]
  obtain ⟨-, -, -, -, -, -, -, -, -, -, -, -, e0, e1⟩ := idx_facts ⟨(i 0).val / 5000, by show (i 0).val / 5000 < 20; omega⟩
  intro a
  match a with
  | ⟨0, _⟩ =>
    show win1_6.index _ (0 : Fin 2) * 5000 ≤ (i 0).val ∧ (i 0).val < win1_6.index _ (0 : Fin 2) * 5000 + 5000
    rw [e0]; show (i 0).val / 5000 * 5000 ≤ (i 0).val ∧ (i 0).val < (i 0).val / 5000 * 5000 + 5000; omega
  | ⟨1, _⟩ =>
    show win1_6.index _ (1 : Fin 2) * 64 ≤ (i 1).val ∧ (i 1).val < win1_6.index _ (1 : Fin 2) * 64 + 64
    rw [e1]; omega

/-- The output array after the pipeline is `out` of the six operand arrays as the region finds them. -/
theorem final (c : Dev nD) : (dat1 (F := Ideal) V c).arrAt 6 cfg1.N
    = out (V c main_v40) (V c main_v29) (V c main_v15) (V c main_arg5) (V c main_v41) (V c main_arg7) :=
  (dat1 V c).arrAt_eq_of_cover 6 _ (fun t _ => flushed_eq V c t) cover

end Cert.KernelIdeal.Layer1

end
-- ==== Proof.Head.lean ====
/-
  The last pipeline, closed: the third layer (no activation), the two-layer predictor and the logistic function, fused.

  Grid point `t` works on rows 5000·t … 5000·t + 4999. For a row r it forms the third layer's row
      u[j] = Σₖ (agg[r,k]·inv[r])·Wn[k,j] + Σₖ h[r,k]·Wr[k,j] + b[j],
  the hidden row  g[j'] = max( Σⱼ u[j]·Wp1[j,j'] + bp1[j'], 0 ),  and the score
      logistic( Σⱼ' g[j']·Wp2[j',0] + bp2[0] ),
  every matrix product a plain sum at the ideal values and every rounding to the narrow format the identity. The twenty
  blocks tile the [100000, 1] output, so the output array ends holding that function of the ten operand arrays.
-/
import proofs.«124590_j59665685676525_2_alg».proof.Proof.Gen.KernelIdeal.Frame
import proofs.«124590_j59665685676525_2_alg».proof.Proof.SageRow
import proofs.«124590_j59665685676525_2_alg».proof.Proof.LibLayout
import proofs.«124590_j59665685676525_2_alg».proof.Proof.MatMul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Head

open Cert.KernelIdeal Cert.KernelIdeal.Gen Idealize.ShloMosaic Idealize.ShloMosaic.TcCoe Idealize.ShloMosaic.ValueIdx Cert.Sage Cert.LibLayout Cert.KernelIdeal.MatMul

/-- The score of one node from its aggregated row `a`, its own row `h`, its reciprocal in-degree `s` and the weights. -/
def score (a h : Fin 64 → EReal) (s : EReal) (wn : S64x64.Idx → EReal) (bn : S1x64.Idx → EReal) (wr wp1 : S64x64.Idx → EReal)
    (bp1 : S1x64.Idx → EReal) (wp2 : S64x1.Idx → EReal) (bp2 : S1x1.Idx → EReal) (z : Fin 1) : EReal :=
  Ideal.logistic (dense
    (fun k' : Fin 64 => max (dense (fun k : Fin 64 => rowSum a h s (fun q => wn (ix2 q k)) (fun q => wr (ix2 q k)) (bn (ix2 0 k)))
      (fun k => wp1 (ix2 k k')) (bp1 (ix2 0 k'))) 0)
    (fun k' => wp2 (ix2 k' z)) (bp2 (ix2 0 z)))

/-- The body's stored value at entry (r, z) of the block, from the ten loaded blocks. -/
theorem pay_apply (v0 : Vec Ideal S5000x64 .f32) (v2 : Vec Ideal S5000x1 .f32) (v7 : Vec Ideal S5000x64 .bf16) (v9 v11 : Vec Ideal S64x64 .f32)
    (v16 : Vec Ideal S1x64 .f32) (v21 : Vec Ideal S64x64 .f32) (v24 : Vec Ideal S1x64 .f32) (v30 : Vec Ideal S64x1 .f32)
    (v34 : Vec Ideal S1x1 .f32) (r : Fin 5000) (z : Fin 1) :
    k2_pay1 (F := Ideal) (k2_pay2 v0 v2 v7 v9 v11 v16 v21 v24 v30) v34 (ix2 r z)
      = score (fun k => v0 (ix2 r k)) (fun k => v7 (ix2 r k)) (v2 (ix2 r 0)) v9 v16 v11 v21 v24 v30 v34 z := by
  unfold k2_pay1 k2_pay2
  simp only [shapeCast_self]
  show Ideal.logistic _ = _
  unfold score dense rowSum
  refine congrArg Ideal.logistic ?_
  simp only [addf_apply, truncf_apply, maximumf_apply, mulf_apply, broadcast_apply, mm64_apply, mm64x1_apply,
    broadcastTo_1b_ab_apply, broadcastTo_a1_ab_apply, Ideal.ofBits_def, Ideal.ofBits_zero_f32]

/-- The output at row `r` from the ten operand arrays. -/
def outAt (agg h : S100000x64.Idx → EReal) (inv : S100000x1.Idx → EReal) (wn : S64x64.Idx → EReal) (bn : S1x64.Idx → EReal)
    (wr wp1 : S64x64.Idx → EReal) (bp1 : S1x64.Idx → EReal) (wp2 : S64x1.Idx → EReal) (bp2 : S1x1.Idx → EReal)
    (r : Fin 100000) (z : Fin 1) : EReal :=
  score (fun k => agg (ix2 r k)) (fun k => h (ix2 r k)) (inv (ix2 r 0)) wn bn wr wp1 bp1 wp2 bp2 z

/-- The output array as one function of the ten operand arrays. -/
def out (agg h : S100000x64.Idx → EReal) (inv : S100000x1.Idx → EReal) (wn : S64x64.Idx → EReal) (bn : S1x64.Idx → EReal)
    (wr wp1 : S64x64.Idx → EReal) (bp1 : S1x64.Idx → EReal) (wp2 : S64x1.Idx → EReal) (bp2 : S1x1.Idx → EReal) :
    S100000x1.Idx → EReal := fun i => outAt agg h inv wn bn wr wp1 bp1 wp2 bp2 (i 0) (i 1)

theorem hz : (![0, 0] : Fin 2 → Nat) = fun _ => 0 := funext fun a => by fin_cases a <;> rfl

/-- The printed index maps, decided over the twenty grid points: the three row-blocked operands and the output sit at
    block (t, 0), every weight and bias at block (0, 0). -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = t.val ∧ win2_10.index t (1 : Fin 2) = 0) :=
  (by decide +kernel : ∀ t : Fin grid2.N, _)

variable (V : (c : Dev nD) → (b : Ref sig .tc) → Buf (Elt Ideal) ((c : Thread nD τ).loc b))

/-! Each input block read at an entry is the operand array at the matching entry: row `r` of point `t`'s block is row
    5000·t + r of the array; the weight and bias blocks are the whole arrays. -/

theorem blk0 (c : Dev nD) (t : Fin cfg2.N) (r : Fin 5000) (k : Fin 64) (R : Fin 100000) (hR : R.val = t.val * 5000 + r.val) :
    iblk2 V c 0 t (ix2 r k) = V c main_v53 (ix2 R k) := by
  show V c main_v53 (((cfg2.win 0).blk t).view.emb (ix2 r k)) = V c main_v53 (ix2 R k)
  refine congrArg _ (funext fun a => Fin.ext ?_)
  obtain ⟨e0, e1⟩ := (idx_facts t).1
  match a with
  | ⟨0, _⟩ => show win2_0.index t (0 : Fin 2) * 5000 + 1 * r.val = R.val; omega
  | ⟨1, _⟩ => show win2_0.index t (1 : Fin 2) * 64 + 1 * k.val = k.val; omega

theorem blk1 (c : Dev nD) (t : Fin cfg2.N) (r : Fin 5000) (k : Fin 64) (R : Fin 100000) (hR : R.val = t.val * 5000 + r.val) :
    iblk2 V c 1 t (ix2 r k) = V c main_v42 (ix2 R k) := by
  show V c main_v42 (((cfg2.win 1).blk t).view.emb (ix2 r k)) = V c main_v42 (ix2 R k)
  refine congrArg _ (funext fun a => Fin.ext ?_)
  obtain ⟨e0, e1⟩ := (idx_facts t).2.1
  match a with
  | ⟨0, _⟩ => show win2_1.index t (0 : Fin 2) * 5000 + 1 * r.val = R.val; omega
  | ⟨1, _⟩ => show win2_1.index t (1 : Fin 2) * 64 + 1 * k.val = k.val; omega

theorem blk2 (c : Dev nD) (t : Fin cfg2.N) (r : Fin 5000) (R : Fin 100000) (hR : R.val = t.val * 5000 + r.val) :
    iblk2 V c 2 t (ix2 r 0) = V c main_v15 (ix2 R 0) := by
  show V c main_v15 (((cfg2.win 2).blk t).view.emb (ix2 r 0)) = V c main_v15 (ix2 R 0)
  refine congrArg _ (funext fun a => Fin.ext ?_)
  obtain ⟨e0, e1⟩ := (idx_facts t).2.2.1
  match a with
  | ⟨0, _⟩ => show win2_2.index t (0 : Fin 2) * 5000 + 1 * r.val = R.val; omega
  | ⟨1, _⟩ => show win2_2.index t (1 : Fin 2) * 1 + 1 * 0 = 0; omega

/-- A whole-array window's block is the array: [64, 64] weights. -/
theorem blk3 (c : Dev nD) (t : Fin cfg2.N) : (iblk2 V c 3 t : S64x64.Idx → EReal) = V c main_arg8 := by
  funext y
  show V c main_arg8 (((cfg2.win 3).blk t).view.emb y) = V c main_arg8 y
  refine congrArg _ (funext fun a => Fin.ext ?_)
  obtain ⟨e0, e1⟩ := (idx_facts t).2.2.2.1
  match a with
  | ⟨0, _⟩ => show win2_3.index t (0 : Fin 2) * 64 + 1 * (y 0).val = (y 0).val; omega
  | ⟨1, _⟩ => show win2_3.index t (1 : Fin 2) * 64 + 1 * (y 1).val = (y 1).val; omega

theorem blk4 (c : Dev nD) (t : Fin cfg2.N) : (iblk2 V c 4 t : S1x64.Idx → EReal) = V c main_v54 := by
  funext y
  show V c main_v54 (((cfg2.win 4).blk t).view.emb y) = V c main_v54 y
  refine congrArg _ (funext fun a => Fin.ext ?_)
  obtain ⟨e0, e1⟩ := (idx_facts t).2.2.2.2.1
  match a with
  | ⟨0, _⟩ => show win2_4.index t (0 : Fin 2) * 1 + 1 * (y 0).val = (y 0).val; omega
  | ⟨1, _⟩ => show win2_4.index t (1 : Fin 2) * 64 + 1 * (y 1).val = (y 1).val; omega

theorem blk5 (c : Dev nD) (t : Fin cfg2.N) : (iblk2 V c 5 t : S64x64.Idx → EReal) = V c main_arg10 := by
  funext y
  show V c main_arg10 (((cfg2.win 5).blk t).view.emb y) = V c main_arg10 y
  refine congrArg _ (funext fun a => Fin.ext ?_)
  obtain ⟨e0, e1⟩ := (idx_facts t).2.2.2.2.2.1
  match a with
  | ⟨0, _⟩ => show win2_5.index t (0 : Fin 2) * 64 + 1 * (y 0).val = (y 0).val; omega
  | ⟨1, _⟩ => show win2_5.index t (1 : Fin 2) * 64 + 1 * (y 1).val = (y 1).val; omega

theorem blk6 (c : Dev nD) (t : Fin cfg2.N) : (iblk2 V c 6 t : S64x64.Idx → EReal) = V c main_arg11 := by
  funext y
  show V c main_arg11 (((cfg2.win 6).blk t).view.emb y) = V c main_arg11 y
  refine congrArg _ (funext fun a => Fin.ext ?_)
  obtain ⟨e0, e1⟩ := (idx_facts t).2.2.2.2.2.2.1
  match a with
  | ⟨0, _⟩ => show win2_6.index t (0 : Fin 2) * 64 + 1 * (y 0).val = (y 0).val; omega
  | ⟨1, _⟩ => show win2_6.index t (1 : Fin 2) * 64 + 1 * (y 1).val = (y 1).val; omega

theorem blk7 (c : Dev nD) (t : Fin cfg2.N) : (iblk2 V c 7 t : S1x64.Idx → EReal) = V c main_v55 := by
  funext y
  show V c main_v55 (((cfg2.win 7).blk t).view.emb y) = V c main_v55 y
  refine congrArg _ (funext fun a => Fin.ext ?_)
  obtain ⟨e0, e1⟩ := (idx_facts t).2.2.2.2.2.2.2.1
  match a with
  | ⟨0, _⟩ => show win2_7.index t (0 : Fin 2) * 1 + 1 * (y 0).val = (y 0).val; omega
  | ⟨1, _⟩ => show win2_7.index t (1 : Fin 2) * 64 + 1 * (y 1).val = (y 1).val; omega

theorem blk8 (c : Dev nD) (t : Fin cfg2.N) : (iblk2 V c 8 t : S64x1.Idx → EReal) = V c main_arg13 := by
  funext y
  show V c main_arg13 (((cfg2.win 8).blk t).view.emb y) = V c main_arg13 y
  refine congrArg _ (funext fun a => Fin.ext ?_)
  obtain ⟨e0, e1⟩ := (idx_facts t).2.2.2.2.2.2.2.2.1
  match a with
  | ⟨0, _⟩ => show win2_8.index t (0 : Fin 2) * 64 + 1 * (y 0).val = (y 0).val; omega
  | ⟨1, _⟩ => show win2_8.index t (1 : Fin 2) * 1 + 1 * (y 1).val = (y 1).val; omega

theorem blk9 (c : Dev nD) (t : Fin cfg2.N) : (iblk2 V c 9 t : S1x1.Idx → EReal) = V c main_v56 := by
  funext y
  show V c main_v56 (((cfg2.win 9).blk t).view.emb y) = V c main_v56 y
  refine congrArg _ (funext fun a => Fin.ext ?_)
  obtain ⟨e0, e1⟩ := (idx_facts t).2.2.2.2.2.2.2.2.2.1
  match a with
  | ⟨0, _⟩ => show win2_9.index t (0 : Fin 2) * 1 + 1 * (y 0).val = (y 0).val; omega
  | ⟨1, _⟩ => show win2_9.index t (1 : Fin 2) * 1 + 1 * (y 1).val = (y 1).val; omega

/-- What grid point `t` writes back is block `t` of `out` of the operand arrays as the region finds them. -/
theorem flushed_eq (c : Dev nD) (t : Fin cfg2.N) :
    (dat2 (F := Ideal) V c).flushed 10 t = ((cfg2.win 10).blk t).view.read (Elt Ideal) (out (V c main_v53) (V c main_v42) (V c main_v15) (V c main_arg8) (V c main_v54) (V c main_arg10) (V c main_arg11) (V c main_v55) (V c main_arg13) (V c main_v56)) := by
  show (cfg2.win 10).cut (grid2.coords t) ((dat2 V c).after 10 t) = _
  rw [after2_10]
  unfold out2_10
  rw [View.canon_unit_zero hz]
  simp only [View.ld_unit_zero (S := S5000x64) hz, View.ld_unit_zero (S := S5000x1) hz, View.ld_unit_zero (S := S64x64) hz,
    View.ld_unit_zero (S := S1x64) hz, View.ld_unit_zero (S := S64x1) hz, View.ld_unit_zero (S := S1x1) hz]
  funext j
  obtain ⟨r, z, rfl⟩ : ∃ (r : Fin 5000) (z : Fin 1), j = ix2 r z := ⟨j 0, j 1, eq_ix2 j⟩
  have ht : t.val < 20 := t.isLt
  have hR : t.val * 5000 + r.val < 100000 := by have := r.isLt; omega
  obtain ⟨e0, e1⟩ := (idx_facts t).2.2.2.2.2.2.2.2.2.2
  have he : ((cfg2.win 10).blk t).view.emb (ix2 r z) = ix2 (⟨t.val * 5000 + r.val, hR⟩ : Fin 100000) z := funext fun a => Fin.ext (by
    match a with
    | ⟨0, _⟩ => show win2_10.index t (0 : Fin 2) * 5000 + 1 * r.val = t.val * 5000 + r.val; omega
    | ⟨1, _⟩ => show win2_10.index t (1 : Fin 2) * 1 + 1 * z.val = z.val; omega)
  show k2_pay1 (k2_pay2 (iblk2 V c 0 t) (iblk2 V c 2 t) (iblk2 V c 1 t) (iblk2 V c 3 t) (iblk2 V c 5 t) (iblk2 V c 4 t) (iblk2 V c 6 t)
      (iblk2 V c 7 t) (iblk2 V c 8 t)) (iblk2 V c 9 t) (ix2 r z)
    = out (V c main_v53) (V c main_v42) (V c main_v15) (V c main_arg8) (V c main_v54) (V c main_arg10) (V c main_arg11) (V c main_v55) (V c main_arg13) (V c main_v56) (((cfg2.win 10).blk t).view.emb (ix2 r z))
  rw [he]
  refine (pay_apply (iblk2 V c 0 t) (iblk2 V c 2 t) (iblk2 V c 1 t) (iblk2 V c 3 t) (iblk2 V c 5 t) (iblk2 V c 4 t) (iblk2 V c 6 t)
    (iblk2 V c 7 t) (iblk2 V c 8 t) (iblk2 V c 9 t) r z).trans ?_
  show _ = outAt (V c main_v53) (V c main_v42) (V c main_v15) (V c main_arg8) (V c main_v54) (V c main_arg10) (V c main_arg11) (V c main_v55) (V c main_arg13) (V c main_v56) ⟨t.val * 5000 + r.val, hR⟩ z
  unfold outAt
  rw [funext fun k => blk0 V c t r k ⟨t.val * 5000 + r.val, hR⟩ rfl, funext fun k => blk1 V c t r k ⟨t.val * 5000 + r.val, hR⟩ rfl,
    blk2 V c t r ⟨t.val * 5000 + r.val, hR⟩ rfl, blk3 V c t, blk4 V c t, blk5 V c t, blk6 V c t, blk7 V c t, blk8 V c t, blk9 V c t]

/-- An entry of the output array is in point `t`'s block iff each coordinate is in the block's range on its axis. -/
theorem mem_blk (t : Fin cfg2.N) (i : S100000x1.Idx) :
    i ∈ ((cfg2.win 10).blk t).view.set ↔ ∀ a : Fin 2, win2_10.index t a * S5000x1.size a ≤ (i a).val ∧ (i a).val < win2_10.index t a * S5000x1.size a + S5000x1.size a := by
  show i ∈ ((View.whole main_v57).slice (win2_10.rect t)).set ↔ _
  rw [View.set_slice_whole, Rect.mem_set_unit]
  exact Iff.rfl

/-- Every entry of the output array is in some point's block: row `R` in point `R / 5000`'s. -/
theorem cover (i : S100000x1.Idx) : ∃ t : Fin cfg2.N, (cfg2.win 10).flush t = true ∧ i ∈ ((cfg2.win 10).blk t).view.set := by
  have hi0 : (i 0).val < 100000 := (i 0).isLt
  have hi1 : (i 1).val < 1 := (i 1).isLt
  refine ⟨⟨(i 0).val / 5000, by show (i 0).val / 5000 < 20; omega⟩, flush2_10 _, ?_⟩
  rw [mem_blk]
  obtain ⟨e0, e1⟩ := (idx_facts ⟨(i 0).val / 5000, by show (i 0).val / 5000 < 20; omega⟩).2.2.2.2.2.2.2.2.2.2
  intro a
  match a with
  | ⟨0, _⟩ =>
    show win2_10.index _ (0 : Fin 2) * 5000 ≤ (i 0).val ∧ (i 0).val < win2_10.index _ (0 : Fin 2) * 5000 + 5000
    rw [e0]; show (i 0).val / 5000 * 5000 ≤ (i 0).val ∧ (i 0).val < (i 0).val / 5000 * 5000 + 5000; omega
  | ⟨1, _⟩ =>
    show win2_10.index _ (1 : Fin 2) * 1 ≤ (i 1).val ∧ (i 1).val < win2_10.index _ (1 : Fin 2) * 1 + 1
    rw [e1]; omega

/-- The output array after the pipeline is `out` of the ten operand arrays as the region finds them. -/
theorem final (c : Dev nD) : (dat2 (F := Ideal) V c).arrAt 10 cfg2.N = out (V c main_v53) (V c main_v42) (V c main_v15) (V c main_arg8) (V c main_v54) (V c main_arg10) (V c main_arg11) (V c main_v55) (V c main_arg13) (V c main_v56) :=
  (dat2 V c).arrAt_eq_of_cover 10 _ (fun t _ => flushed_eq V c t) cover

end Cert.KernelIdeal.Head

end
-- ==== Proof.RefLayers.lean ====
/-
  The reference's three layers and its predictor, stage by stage, are the same functions of their operands as the
  kernel-side pipelines' outputs.

  Each lemma takes the reference's stage values as they are defined (one operation at a time over the arguments) and reads
  the layer's last stage at an entry (r, c): a matrix product on the host is the sum over the contracted axis, a broadcast
  reads its operand at the matching entry, the maximum with the zero constant is `max · 0`. The bias row enters through a
  hypothesis, so the statement does not depend on how the other program lays the bias out as a one-row matrix.
-/
import proofs.«124590_j59665685676525_2_alg».proof.Proof.ReadP
import proofs.«124590_j59665685676525_2_alg».proof.Proof.Layer0
import proofs.«124590_j59665685676525_2_alg».proof.Proof.Layer1
import proofs.«124590_j59665685676525_2_alg».proof.Proof.Head
import Idealize.ShloMosaic.Lib.ValueLayout

set_option maxRecDepth 16384

noncomputable section

open scoped BigOperators

namespace Cert.ReferenceIdeal.Layers

open Cert.ReferenceIdeal Cert.ReferenceIdeal.ReadP Idealize.ShloMosaic Idealize.ShloMosaic.TcCoe Idealize.ShloMosaic.ValueIdx Cert.Sage Cert.LibLayout

/-- The reference's layer0 layer, entry by entry: its stage chain (the product with the broadcast reciprocal in-degree,
    the two matrix products, the bias broadcast over the rows, the two additions, the maximum with zero) read at (r, c) is
    the kernel-side function of the same operands; the bias is added in another place, which commutes. -/
theorem layer0 (x0 : (⟨S100000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal))
    (b : Cert.KernelIdeal.S1x64.Idx → EReal) (hb : ∀ c : Fin 64, b (ix2 (0 : Fin 1) c) = x3 (ix1 c)) :
    val_main_v34 (F := Ideal) x0 x1 x2 x3 x4 = Cert.KernelIdeal.Layer0.out (val_main_v25 (F := Ideal) x0 x1) (x0) (val_main_v15 (F := Ideal) x1) x2 b x4 := by
  funext i
  obtain ⟨r, c, rfl⟩ : ∃ (r : Fin 100000) (c : Fin 64), i = ix2 r c := ⟨i 0, i 1, eq_ix2 i⟩
  have e1 : ∀ q : Fin 32, lidx_main_v28 (ix2 r c) q = ix2 r q := fun q => funext fun a => by match a with | ⟨0, _⟩ => rfl | ⟨1, _⟩ => rfl
  have e2 : ∀ q : Fin 32, ridx_main_v28 (ix2 r c) q = ix2 q c := fun q => funext fun a => by match a with | ⟨0, _⟩ => rfl | ⟨1, _⟩ => rfl
  have e3 : ∀ q : Fin 32, lidx_main_v32 (ix2 r c) q = ix2 r q := fun q => funext fun a => by match a with | ⟨0, _⟩ => rfl | ⟨1, _⟩ => rfl
  have e4 : ∀ q : Fin 32, ridx_main_v32 (ix2 r c) q = ix2 q c := fun q => funext fun a => by match a with | ⟨0, _⟩ => rfl | ⟨1, _⟩ => rfl
  have e5 : idx_main_v29 (idx_main_v30 (ix2 r c)) = ix1 c := funext fun a => by match a with | ⟨0, _⟩ => rfl
  have e6 : ∀ q : Fin 32, idx_main_v26 (ix2 r q) = ix2 r (0 : Fin 1) := fun q => funext fun a => by match a with | ⟨0, _⟩ => rfl | ⟨1, _⟩ => rfl
  rw [val_main_v34_apply, val_main_v33_apply, val_main_v31_apply, val_main_v28_apply, val_main_v32_apply]
  rw [val_main_v30_apply, val_main_v29_apply, val_main_call1_v0_apply, val_main_call1_cst_apply]
  rw [e5]
  have s1 : ∑ q : Fin 32, val_main_v27 (F := Ideal) x0 x1 (lidx_main_v28 (ix2 r c) q) * x2 (ridx_main_v28 (ix2 r c) q)
      = ∑ q : Fin 32, (val_main_v25 (F := Ideal) x0 x1 (ix2 r q) * val_main_v15 (F := Ideal) x1 (ix2 r 0)) * x2 (ix2 q c) :=
    Finset.sum_congr rfl fun q _ => by
      rw [e1 q, e2 q, val_main_v27_apply, val_main_v26_apply, e6 q]; rfl
  have s2 : ∑ q : Fin 32, (x0) (lidx_main_v32 (ix2 r c) q) * x4 (ridx_main_v32 (ix2 r c) q)
      = ∑ q : Fin 32, (x0) (ix2 r q) * x4 (ix2 q c) :=
    Finset.sum_congr rfl fun q _ => by rw [e3 q, e4 q]
  rw [s1, s2]
  show max (((∑ q : Fin 32, (val_main_v25 (F := Ideal) x0 x1 (ix2 r q) * val_main_v15 (F := Ideal) x1 (ix2 r 0)) * x2 (ix2 q c)) + x3 (ix1 c))
      + ∑ q : Fin 32, (x0) (ix2 r q) * x4 (ix2 q c)) (Ideal.ofBits .f32 0x00000000#32)
    = Cert.KernelIdeal.Layer0.outAt (val_main_v25 (F := Ideal) x0 x1) (x0) (val_main_v15 (F := Ideal) x1) x2 b x4 r c
  rw [Ideal.ofBits_zero_f32]
  unfold Cert.KernelIdeal.Layer0.outAt
  rw [hb c]
  exact congrArg (fun z => max z 0) (rowSum_bias_first (fun q : Fin 32 => val_main_v25 (F := Ideal) x0 x1 (ix2 r q)) (fun q => (x0) (ix2 r q))
    (val_main_v15 (F := Ideal) x1 (ix2 r 0)) (fun q => x2 (ix2 q c)) (fun q => x4 (ix2 q c)) (x3 (ix1 c)))

/-- The reference's layer1 layer, entry by entry: its stage chain (the product with the broadcast reciprocal in-degree,
    the two matrix products, the bias broadcast over the rows, the two additions, the maximum with zero) read at (r, c) is
    the kernel-side function of the same operands; the bias is added in another place, which commutes. -/
theorem layer1 (x0 : (⟨S100000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal))
    (b : Cert.KernelIdeal.S1x64.Idx → EReal) (hb : ∀ c : Fin 64, b (ix2 (0 : Fin 1) c) = x6 (ix1 c)) :
    val_main_v53 (F := Ideal) x0 x1 x2 x3 x4 x5 x6 x7 = Cert.KernelIdeal.Layer1.out (val_main_v44 (F := Ideal) x0 x1 x2 x3 x4) (val_main_v34 (F := Ideal) x0 x1 x2 x3 x4) (val_main_v15 (F := Ideal) x1) x5 b x7 := by
  funext i
  obtain ⟨r, c, rfl⟩ : ∃ (r : Fin 100000) (c : Fin 64), i = ix2 r c := ⟨i 0, i 1, eq_ix2 i⟩
  have e1 : ∀ q : Fin 64, lidx_main_v47 (ix2 r c) q = ix2 r q := fun q => funext fun a => by match a with | ⟨0, _⟩ => rfl | ⟨1, _⟩ => rfl
  have e2 : ∀ q : Fin 64, ridx_main_v47 (ix2 r c) q = ix2 q c := fun q => funext fun a => by match a with | ⟨0, _⟩ => rfl | ⟨1, _⟩ => rfl
  have e3 : ∀ q : Fin 64, lidx_main_v51 (ix2 r c) q = ix2 r q := fun q => funext fun a => by match a with | ⟨0, _⟩ => rfl | ⟨1, _⟩ => rfl
  have e4 : ∀ q : Fin 64, ridx_main_v51 (ix2 r c) q = ix2 q c := fun q => funext fun a => by match a with | ⟨0, _⟩ => rfl | ⟨1, _⟩ => rfl
  have e5 : idx_main_v48 (idx_main_v49 (ix2 r c)) = ix1 c := funext fun a => by match a with | ⟨0, _⟩ => rfl
  have e6 : ∀ q : Fin 64, idx_main_v45 (ix2 r q) = ix2 r (0 : Fin 1) := fun q => funext fun a => by match a with | ⟨0, _⟩ => rfl | ⟨1, _⟩ => rfl
  rw [val_main_v53_apply, val_main_v52_apply, val_main_v50_apply, val_main_v47_apply, val_main_v51_apply]
  rw [val_main_v49_apply, val_main_v48_apply, val_main_call2_v0_apply, val_main_call2_cst_apply]
  rw [e5]
  have s1 : ∑ q : Fin 64, val_main_v46 (F := Ideal) x0 x1 x2 x3 x4 (lidx_main_v47 (ix2 r c) q) * x5 (ridx_main_v47 (ix2 r c) q)
      = ∑ q : Fin 64, (val_main_v44 (F := Ideal) x0 x1 x2 x3 x4 (ix2 r q) * val_main_v15 (F := Ideal) x1 (ix2 r 0)) * x5 (ix2 q c) :=
    Finset.sum_congr rfl fun q _ => by
      rw [e1 q, e2 q, val_main_v46_apply, val_main_v45_apply, e6 q]; rfl
  have s2 : ∑ q : Fin 64, (val_main_v34 (F := Ideal) x0 x1 x2 x3 x4) (lidx_main_v51 (ix2 r c) q) * x7 (ridx_main_v51 (ix2 r c) q)
      = ∑ q : Fin 64, (val_main_v34 (F := Ideal) x0 x1 x2 x3 x4) (ix2 r q) * x7 (ix2 q c) :=
    Finset.sum_congr rfl fun q _ => by rw [e3 q, e4 q]
  rw [s1, s2]
  show max (((∑ q : Fin 64, (val_main_v44 (F := Ideal) x0 x1 x2 x3 x4 (ix2 r q) * val_main_v15 (F := Ideal) x1 (ix2 r 0)) * x5 (ix2 q c)) + x6 (ix1 c))
      + ∑ q : Fin 64, (val_main_v34 (F := Ideal) x0 x1 x2 x3 x4) (ix2 r q) * x7 (ix2 q c)) (Ideal.ofBits .f32 0x00000000#32)
    = Cert.KernelIdeal.Layer1.outAt (val_main_v44 (F := Ideal) x0 x1 x2 x3 x4) (val_main_v34 (F := Ideal) x0 x1 x2 x3 x4) (val_main_v15 (F := Ideal) x1) x5 b x7 r c
  rw [Ideal.ofBits_zero_f32]
  unfold Cert.KernelIdeal.Layer1.outAt
  rw [hb c]
  exact congrArg (fun z => max z 0) (rowSum_bias_first (fun q : Fin 64 => val_main_v44 (F := Ideal) x0 x1 x2 x3 x4 (ix2 r q)) (fun q => (val_main_v34 (F := Ideal) x0 x1 x2 x3 x4) (ix2 r q))
    (val_main_v15 (F := Ideal) x1 (ix2 r 0)) (fun q => x5 (ix2 q c)) (fun q => x7 (ix2 q c)) (x6 (ix1 c)))

/-- The reference's last stretch, entry by entry: the third layer without activation, the hidden layer with its maximum
    with zero, the output layer, and the logistic function spelt as  1 / (1 + e^(−x))  — which is the logistic function
    of the extended reals by definition. -/
theorem head (x0 : (⟨S100000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S32x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x1, .f32⟩ : BufTy).Contents (Elt Ideal)) (x14 : (⟨S1, .f32⟩ : BufTy).Contents (Elt Ideal))
    (b9 : Cert.KernelIdeal.S1x64.Idx → EReal) (hb9 : ∀ c : Fin 64, b9 (ix2 (0 : Fin 1) c) = x9 (ix1 c))
    (b12 : Cert.KernelIdeal.S1x64.Idx → EReal) (hb12 : ∀ c : Fin 64, b12 (ix2 (0 : Fin 1) c) = x12 (ix1 c))
    (b14 : Cert.KernelIdeal.S1x1.Idx → EReal) (hb14 : ∀ z : Fin 1, b14 (ix2 (0 : Fin 1) z) = x14 (ix1 z)) :
    val_main_v86 (F := Ideal) x0 x1 x2 x3 x4 x5 x6 x7 x8 x9 x10 x11 x12 x13 x14 = Cert.KernelIdeal.Head.out (val_main_v63 (F := Ideal) x0 x1 x2 x3 x4 x5 x6 x7) (val_main_v53 (F := Ideal) x0 x1 x2 x3 x4 x5 x6 x7) (val_main_v15 (F := Ideal) x1) x8 b9 x10 x11 b12 x13 b14 := by
  funext i
  obtain ⟨r, z, rfl⟩ : ∃ (r : Fin 100000) (z : Fin 1), i = ix2 r z := ⟨i 0, i 1, eq_ix2 i⟩
  -- the third layer's row, no activation
  have hu : ∀ k : Fin 64, val_main_v71 (F := Ideal) x0 x1 x2 x3 x4 x5 x6 x7 x8 x9 x10 (ix2 r k)
      = rowSum (fun q : Fin 64 => val_main_v63 (F := Ideal) x0 x1 x2 x3 x4 x5 x6 x7 (ix2 r q)) (fun q => val_main_v53 (F := Ideal) x0 x1 x2 x3 x4 x5 x6 x7 (ix2 r q)) (val_main_v15 (F := Ideal) x1 (ix2 r 0))
          (fun q => x8 (ix2 q k)) (fun q => x10 (ix2 q k)) (b9 (ix2 0 k)) := by
    intro k
    have e1 : ∀ q : Fin 64, lidx_main_v66 (ix2 r k) q = ix2 r q := fun q => funext fun a => by match a with | ⟨0, _⟩ => rfl | ⟨1, _⟩ => rfl
    have e2 : ∀ q : Fin 64, ridx_main_v66 (ix2 r k) q = ix2 q k := fun q => funext fun a => by match a with | ⟨0, _⟩ => rfl | ⟨1, _⟩ => rfl
    have e3 : ∀ q : Fin 64, lidx_main_v70 (ix2 r k) q = ix2 r q := fun q => funext fun a => by match a with | ⟨0, _⟩ => rfl | ⟨1, _⟩ => rfl
    have e4 : ∀ q : Fin 64, ridx_main_v70 (ix2 r k) q = ix2 q k := fun q => funext fun a => by match a with | ⟨0, _⟩ => rfl | ⟨1, _⟩ => rfl
    have e5 : idx_main_v67 (idx_main_v68 (ix2 r k)) = ix1 k := funext fun a => by match a with | ⟨0, _⟩ => rfl
    have e6 : ∀ q : Fin 64, idx_main_v64 (ix2 r q) = ix2 r (0 : Fin 1) := fun q => funext fun a => by match a with | ⟨0, _⟩ => rfl | ⟨1, _⟩ => rfl
    rw [val_main_v71_apply, val_main_v69_apply, val_main_v66_apply, val_main_v70_apply, val_main_v68_apply, val_main_v67_apply, e5]
    have s1 : ∑ q : Fin 64, val_main_v65 (F := Ideal) x0 x1 x2 x3 x4 x5 x6 x7 (lidx_main_v66 (ix2 r k) q) * x8 (ridx_main_v66 (ix2 r k) q)
        = ∑ q : Fin 64, (val_main_v63 (F := Ideal) x0 x1 x2 x3 x4 x5 x6 x7 (ix2 r q) * val_main_v15 (F := Ideal) x1 (ix2 r 0)) * x8 (ix2 q k) :=
      Finset.sum_congr rfl fun q _ => by
        rw [e1 q, e2 q, val_main_v65_apply, val_main_v64_apply, e6 q]; rfl
    have s2 : ∑ q : Fin 64, val_main_v53 (F := Ideal) x0 x1 x2 x3 x4 x5 x6 x7 (lidx_main_v70 (ix2 r k) q) * x10 (ridx_main_v70 (ix2 r k) q)
        = ∑ q : Fin 64, val_main_v53 (F := Ideal) x0 x1 x2 x3 x4 x5 x6 x7 (ix2 r q) * x10 (ix2 q k) :=
      Finset.sum_congr rfl fun q _ => by rw [e3 q, e4 q]
    rw [s1, s2, hb9 k]
    exact rowSum_bias_first (fun q : Fin 64 => val_main_v63 (F := Ideal) x0 x1 x2 x3 x4 x5 x6 x7 (ix2 r q)) (fun q => val_main_v53 (F := Ideal) x0 x1 x2 x3 x4 x5 x6 x7 (ix2 r q))
      (val_main_v15 (F := Ideal) x1 (ix2 r 0)) (fun q => x8 (ix2 q k)) (fun q => x10 (ix2 q k)) (x9 (ix1 k))
  -- the hidden row
  have hg : ∀ k' : Fin 64, val_main_v76 (F := Ideal) x0 x1 x2 x3 x4 x5 x6 x7 x8 x9 x10 x11 x12 (ix2 r k')
      = max (dense (fun k : Fin 64 => val_main_v71 (F := Ideal) x0 x1 x2 x3 x4 x5 x6 x7 x8 x9 x10 (ix2 r k)) (fun k => x11 (ix2 k k')) (b12 (ix2 0 k'))) 0 := by
    intro k'
    have e1 : ∀ q : Fin 64, lidx_main_v72 (ix2 r k') q = ix2 r q := fun q => funext fun a => by match a with | ⟨0, _⟩ => rfl | ⟨1, _⟩ => rfl
    have e2 : ∀ q : Fin 64, ridx_main_v72 (ix2 r k') q = ix2 q k' := fun q => funext fun a => by match a with | ⟨0, _⟩ => rfl | ⟨1, _⟩ => rfl
    have e5 : idx_main_v73 (idx_main_v74 (ix2 r k')) = ix1 k' := funext fun a => by match a with | ⟨0, _⟩ => rfl
    rw [val_main_v76_apply, val_main_v75_apply, val_main_v72_apply, val_main_v74_apply, val_main_v73_apply, val_main_call3_v0_apply,
      val_main_call3_cst_apply, e5]
    have s1 : ∑ q : Fin 64, val_main_v71 (F := Ideal) x0 x1 x2 x3 x4 x5 x6 x7 x8 x9 x10 (lidx_main_v72 (ix2 r k') q) * x11 (ridx_main_v72 (ix2 r k') q)
        = ∑ q : Fin 64, val_main_v71 (F := Ideal) x0 x1 x2 x3 x4 x5 x6 x7 x8 x9 x10 (ix2 r q) * x11 (ix2 q k') :=
      Finset.sum_congr rfl fun q _ => by rw [e1 q, e2 q]
    rw [s1, hb12 k']
    show max ((∑ q : Fin 64, val_main_v71 (F := Ideal) x0 x1 x2 x3 x4 x5 x6 x7 x8 x9 x10 (ix2 r q) * x11 (ix2 q k')) + x12 (ix1 k')) (Ideal.ofBits .f32 0x00000000#32) = _
    rw [Ideal.ofBits_zero_f32]
    rfl
  -- the score
  have e1 : ∀ q : Fin 64, lidx_main_v77 (ix2 r z) q = ix2 r q := fun q => funext fun a => by match a with | ⟨0, _⟩ => rfl | ⟨1, _⟩ => rfl
  have e2 : ∀ q : Fin 64, ridx_main_v77 (ix2 r z) q = ix2 q z := fun q => funext fun a => by match a with | ⟨0, _⟩ => rfl | ⟨1, _⟩ => rfl
  have e5 : idx_main_v78 (idx_main_v79 (ix2 r z)) = ix1 z := funext fun a => Fin.ext (by
    match a with
    | ⟨0, _⟩ => show 0 = z.val; have := z.isLt; omega)
  rw [val_main_v86_apply, val_main_v84_apply, val_main_v82_apply, val_main_v81_apply, val_main_v80_apply, val_main_v77_apply,
    val_main_v79_apply, val_main_v78_apply, e5, val_main_v85_apply, val_main_cst_14_apply, val_main_v83_apply, val_main_cst_13_apply]
  have s1 : ∑ q : Fin 64, val_main_v76 (F := Ideal) x0 x1 x2 x3 x4 x5 x6 x7 x8 x9 x10 x11 x12 (lidx_main_v77 (ix2 r z) q) * x13 (ridx_main_v77 (ix2 r z) q)
      = ∑ q : Fin 64, max (dense (fun k : Fin 64 => val_main_v71 (F := Ideal) x0 x1 x2 x3 x4 x5 x6 x7 x8 x9 x10 (ix2 r k)) (fun k => x11 (ix2 k q)) (b12 (ix2 0 q))) 0 * x13 (ix2 q z) :=
    Finset.sum_congr rfl fun q _ => by rw [e1 q, e2 q, hg q]
  rw [s1]
  simp only [Ideal.hostDivf_def, Ideal.addf_def, Ideal.hostUnary_exp_def, Ideal.hostNegf_def, Ideal.negf_def, Ideal.ofBits_def]
  show _ = Cert.KernelIdeal.Head.outAt (val_main_v63 (F := Ideal) x0 x1 x2 x3 x4 x5 x6 x7) (val_main_v53 (F := Ideal) x0 x1 x2 x3 x4 x5 x6 x7) (val_main_v15 (F := Ideal) x1) x8 b9 x10 x11 b12 x13 b14 r z
  rw [ofBits_one_f32, ← logistic_eq]
  unfold Cert.KernelIdeal.Head.outAt Cert.KernelIdeal.Head.score
  rw [hb14 z, funext hu]
  rfl

end Cert.ReferenceIdeal.Layers

end
-- ==== Proof.HostA.lean ====
import proofs.«124590_j59665685676525_2_alg».proof.Proof.Gen.KernelIdeal.Frame
import proofs.«124590_j59665685676525_2_alg».proof.Proof.ReadP
import proofs.«124590_j59665685676525_2_alg».proof.Proof.LibFormats
import proofs.«124590_j59665685676525_2_alg».proof.Proof.RefLayers
import Idealize.ShloMosaic.Lib.StableHlo.Run
import Idealize.ShloMosaic.Lib.ValueLayout

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx Cert.LibFormats
open Cert.ReferenceIdeal.ReadP (val_main_v1 val_main_v3 val_main_v15 val_main_v25 val_main_v34 val_main_v44 val_main_v53 val_main_v63 val_main_v86)

variable (m : (ℓ : Loc nD τ sig) → Buf (Elt Ideal) ℓ) (ρ : Dev nD → PrngReg) (c : Dev nD)

/-! # The buffers the first pipeline finds, and what it leaves

Every buffer a pipeline reads is followed from the launch memory through the stretches of host operations before it, and
named by the reference program's value for the same quantity: the two programs run the same host operations on the edge
list, and the roundings the kernel's host side adds around its gathers are the identity. -/

theorem W3_arg0 : W3 m ρ c (Proc.devRef .tc main_arg0) = (m ((c : Thread nD τ).loc main_arg0)) := by
  dsimp only [W3, W2, W1, W0]
  after_results_simp <;> rfl
theorem W3_arg2 : W3 m ρ c (Proc.devRef .tc main_arg2) = (m ((c : Thread nD τ).loc main_arg2)) := by
  dsimp only [W3, W2, W1, W0]
  after_results_simp <;> rfl
theorem W3_arg3 : W3 m ρ c (Proc.devRef .tc main_arg3) = (m ((c : Thread nD τ).loc main_arg3)) := by
  dsimp only [W3, W2, W1, W0]
  after_results_simp <;> rfl
theorem W3_arg4 : W3 m ρ c (Proc.devRef .tc main_arg4) = (m ((c : Thread nD τ).loc main_arg4)) := by
  dsimp only [W3, W2, W1, W0]
  after_results_simp <;> rfl
theorem W3_arg5 : W3 m ρ c (Proc.devRef .tc main_arg5) = (m ((c : Thread nD τ).loc main_arg5)) := by
  dsimp only [W3, W2, W1, W0]
  after_results_simp <;> rfl
theorem W3_arg6 : W3 m ρ c (Proc.devRef .tc main_arg6) = (m ((c : Thread nD τ).loc main_arg6)) := by
  dsimp only [W3, W2, W1, W0]
  after_results_simp <;> rfl
theorem W3_arg7 : W3 m ρ c (Proc.devRef .tc main_arg7) = (m ((c : Thread nD τ).loc main_arg7)) := by
  dsimp only [W3, W2, W1, W0]
  after_results_simp <;> rfl
theorem W3_arg8 : W3 m ρ c (Proc.devRef .tc main_arg8) = (m ((c : Thread nD τ).loc main_arg8)) := by
  dsimp only [W3, W2, W1, W0]
  after_results_simp <;> rfl
theorem W3_arg9 : W3 m ρ c (Proc.devRef .tc main_arg9) = (m ((c : Thread nD τ).loc main_arg9)) := by
  dsimp only [W3, W2, W1, W0]
  after_results_simp <;> rfl
theorem W3_arg10 : W3 m ρ c (Proc.devRef .tc main_arg10) = (m ((c : Thread nD τ).loc main_arg10)) := by
  dsimp only [W3, W2, W1, W0]
  after_results_simp <;> rfl
theorem W3_arg11 : W3 m ρ c (Proc.devRef .tc main_arg11) = (m ((c : Thread nD τ).loc main_arg11)) := by
  dsimp only [W3, W2, W1, W0]
  after_results_simp <;> rfl
theorem W3_arg12 : W3 m ρ c (Proc.devRef .tc main_arg12) = (m ((c : Thread nD τ).loc main_arg12)) := by
  dsimp only [W3, W2, W1, W0]
  after_results_simp <;> rfl
theorem W3_arg13 : W3 m ρ c (Proc.devRef .tc main_arg13) = (m ((c : Thread nD τ).loc main_arg13)) := by
  dsimp only [W3, W2, W1, W0]
  after_results_simp <;> rfl
theorem W3_arg14 : W3 m ρ c (Proc.devRef .tc main_arg14) = (m ((c : Thread nD τ).loc main_arg14)) := by
  dsimp only [W3, W2, W1, W0]
  after_results_simp <;> rfl

set_option maxHeartbeats 1000000 in
theorem W3_v1 : W3 m ρ c (Proc.devRef .tc main_v1) = val_main_v1 (F := Ideal) (m ((c : Thread nD τ).loc main_arg1)) := by
  dsimp only [W3, W2, W1, W0]
  after_results_simp
  unfold Cert.ReferenceIdeal.ReadP.val_main_v1 Cert.ReferenceIdeal.ReadP.val_main_v0
  rfl

set_option maxHeartbeats 1000000 in
theorem W3_v3 : W3 m ρ c (Proc.devRef .tc main_v3) = val_main_v3 (F := Ideal) (m ((c : Thread nD τ).loc main_arg1)) := by
  dsimp only [W3, W2, W1, W0]
  after_results_simp
  unfold Cert.ReferenceIdeal.ReadP.val_main_v3 Cert.ReferenceIdeal.ReadP.val_main_v2
  rfl

/-! ### The reciprocal in-degree: three stretches, one at a time

The select that guards the division is an outlined function's operation; its stretch is read over an arbitrary
valuation, so that only the three buffers it takes from the stretch before appear in the term. -/

set_option maxHeartbeats 1000000 in
theorem W1_v9 : W1 m ρ c (Proc.devRef .tc main_v9) = Cert.ReferenceIdeal.ReadP.val_main_v9 (F := Ideal) (m ((c : Thread nD τ).loc main_arg1)) := by
  dsimp only [W1, W0]
  after_results_simp
  unfold Cert.ReferenceIdeal.ReadP.val_main_v9 Cert.ReferenceIdeal.ReadP.val_main_v8 Cert.ReferenceIdeal.ReadP.val_main_cst_1 Cert.ReferenceIdeal.ReadP.val_main_v7 Cert.ReferenceIdeal.ReadP.val_main_v6 Cert.ReferenceIdeal.ReadP.val_main_v5 Cert.ReferenceIdeal.ReadP.val_main_cst_0 Cert.ReferenceIdeal.ReadP.val_main_v4 Cert.ReferenceIdeal.ReadP.val_main_cst Cert.ReferenceIdeal.ReadP.val_main_v3 Cert.ReferenceIdeal.ReadP.val_main_v2
  rfl

set_option maxHeartbeats 1000000 in
theorem W1_v13 : W1 m ρ c (Proc.devRef .tc main_v13) = Cert.ReferenceIdeal.ReadP.val_main_v13 (F := Ideal) (m ((c : Thread nD τ).loc main_arg1)) := by
  dsimp only [W1, W0]
  after_results_simp
  unfold Cert.ReferenceIdeal.ReadP.val_main_v13 Cert.ReferenceIdeal.ReadP.val_main_v12 Cert.ReferenceIdeal.ReadP.val_main_cst_3 Cert.ReferenceIdeal.ReadP.val_main_v11 Cert.ReferenceIdeal.ReadP.val_main_v10 Cert.ReferenceIdeal.ReadP.val_main_cst_2 Cert.ReferenceIdeal.ReadP.val_main_v7 Cert.ReferenceIdeal.ReadP.val_main_v6 Cert.ReferenceIdeal.ReadP.val_main_v5 Cert.ReferenceIdeal.ReadP.val_main_cst_0 Cert.ReferenceIdeal.ReadP.val_main_v4 Cert.ReferenceIdeal.ReadP.val_main_cst Cert.ReferenceIdeal.ReadP.val_main_v3 Cert.ReferenceIdeal.ReadP.val_main_v2
  rfl

set_option maxHeartbeats 1000000 in
theorem W1_cst_4 : W1 m ρ c (Proc.devRef .tc main_cst_4) = Cert.ReferenceIdeal.ReadP.val_main_cst_4 (F := Ideal) := by
  dsimp only [W1, W0]
  after_results_simp
  rfl

set_option maxHeartbeats 1000000 in
theorem where_v14 (V : Valuation τ sig (Elt Ideal)) :
    StableHlo.after (hostOps0_1 (F := Ideal)) V (Proc.devRef .tc main_v14)
      = select (V (Proc.devRef .tc main_v9)) (V (Proc.devRef .tc main_v13))
          (broadcastInDim S100000 ![] bcast_S_S100000 (id (V (Proc.devRef .tc main_cst_4)))) := by
  after_results_simp
  rfl

set_option maxHeartbeats 1000000 in
theorem W2_v14 : W2 m ρ c (Proc.devRef .tc main_v14) = Cert.ReferenceIdeal.ReadP.val_main_v14 (F := Ideal) (m ((c : Thread nD τ).loc main_arg1)) := by
  refine (where_v14 (W1 m ρ c)).trans ?_
  rw [W1_v9, W1_v13, W1_cst_4]
  unfold Cert.ReferenceIdeal.ReadP.val_main_v14 Cert.ReferenceIdeal.ReadP.val_main_call0_v1 Cert.ReferenceIdeal.ReadP.val_main_call0_v0
  rfl

set_option maxHeartbeats 1000000 in
theorem bcast_v15 (V : Valuation τ sig (Elt Ideal)) :
    StableHlo.after (hostOps0_2 (F := Ideal)) V (Proc.devRef .tc main_v15)
      = broadcastInDim S100000x1 ![0] bcast_S100000_S100000x1_0 (V (Proc.devRef .tc main_v14)) := by
  after_results_simp

set_option maxHeartbeats 1000000 in
theorem W3_v15 : W3 m ρ c (Proc.devRef .tc main_v15) = val_main_v15 (F := Ideal) (m ((c : Thread nD τ).loc main_arg1)) := by
  refine (bcast_v15 (W2 m ρ c)).trans ?_
  rw [W2_v14]
  unfold Cert.ReferenceIdeal.ReadP.val_main_v15
  rfl

set_option maxHeartbeats 1000000 in
/-- The node features rounded to the narrow format are the node features. -/
theorem W3_v16 : W3 m ρ c (Proc.devRef .tc main_v16) = (m ((c : Thread nD τ).loc main_arg0)) := by
  dsimp only [W3, W2, W1, W0]
  after_results_simp
  rfl

set_option maxHeartbeats 2000000 in
/-- The first layer's aggregated features: the scatter-add, by destination, of the source nodes' rows. -/
theorem W3_v27 : W3 m ρ c (Proc.devRef .tc main_v27) = val_main_v25 (F := Ideal) (m ((c : Thread nD τ).loc main_arg0)) (m ((c : Thread nD τ).loc main_arg1)) := by
  dsimp only [W3, W2, W1, W0]
  after_results_simp
  rw [extf_eq, truncf_eq]
  unfold Cert.ReferenceIdeal.ReadP.val_main_v25 Cert.ReferenceIdeal.ReadP.val_main_v24 Cert.ReferenceIdeal.ReadP.val_main_v23 Cert.ReferenceIdeal.ReadP.val_main_cst_6 Cert.ReferenceIdeal.ReadP.val_main_v22 Cert.ReferenceIdeal.ReadP.val_main_v21 Cert.ReferenceIdeal.ReadP.val_main_v20 Cert.ReferenceIdeal.ReadP.val_main_v19 Cert.ReferenceIdeal.ReadP.val_main_v18 Cert.ReferenceIdeal.ReadP.val_main_c_5 Cert.ReferenceIdeal.ReadP.val_main_v17 Cert.ReferenceIdeal.ReadP.val_main_v16 Cert.ReferenceIdeal.ReadP.val_main_c Cert.ReferenceIdeal.ReadP.val_main_v3 Cert.ReferenceIdeal.ReadP.val_main_v2 Cert.ReferenceIdeal.ReadP.val_main_v1 Cert.ReferenceIdeal.ReadP.val_main_v0
  rfl

set_option maxHeartbeats 1000000 in
theorem W3_v28 : W3 m ρ c (Proc.devRef .tc main_v28) = shapeCast S1x64 (m ((c : Thread nD τ).loc main_arg3)) shapeCasts_S64_S1x64 := by
  dsimp only [W3, W2, W1, W0]
  after_results_simp
  rfl

/-- The first pipeline's output is the reference's first hidden layer. -/
theorem W4_v29 : W4 m ρ c (Proc.devRef .tc main_v29) = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 6).trans ((Cert.KernelIdeal.Layer0.final (V3 m ρ) c).trans ?_)
  show Cert.KernelIdeal.Layer0.out (W3 m ρ c (Proc.devRef .tc main_v27)) (W3 m ρ c (Proc.devRef .tc main_v16))
    (W3 m ρ c (Proc.devRef .tc main_v15)) (W3 m ρ c (Proc.devRef .tc main_arg2)) (W3 m ρ c (Proc.devRef .tc main_v28))
    (W3 m ρ c (Proc.devRef .tc main_arg4)) = _
  rw [W3_v27, W3_v16, W3_v15, W3_arg2, W3_v28, W3_arg4]
  exact (Cert.ReferenceIdeal.Layers.layer0 (m ((c : Thread nD τ).loc main_arg0)) (m ((c : Thread nD τ).loc main_arg1)) (m ((c : Thread nD τ).loc main_arg2)) (m ((c : Thread nD τ).loc main_arg3)) (m ((c : Thread nD τ).loc main_arg4)) _ (fun c' => shapeCast_a_1a_apply _ _ 0 c')).symm

/-! ## What the first pipeline leaves untouched -/

theorem W4_v1 : W4 m ρ c (Proc.devRef .tc main_v1) = val_main_v1 (F := Ideal) (m ((c : Thread nD τ).loc main_arg1)) :=
  (W4_of_ne m ρ c main_v1 (by decide)).trans (W3_v1 m ρ c)
theorem W4_v3 : W4 m ρ c (Proc.devRef .tc main_v3) = val_main_v3 (F := Ideal) (m ((c : Thread nD τ).loc main_arg1)) :=
  (W4_of_ne m ρ c main_v3 (by decide)).trans (W3_v3 m ρ c)
theorem W4_v15 : W4 m ρ c (Proc.devRef .tc main_v15) = val_main_v15 (F := Ideal) (m ((c : Thread nD τ).loc main_arg1)) :=
  ((W4_arr m ρ c 2).trans (((dat0 (V3 m ρ) c).arrAt_in 2 rfl _).trans (A_eq0 (V3 m ρ) c 2))).trans (W3_v15 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)
theorem W4_arg7 : W4 m ρ c (Proc.devRef .tc main_arg7) = (m ((c : Thread nD τ).loc main_arg7)) :=
  (W4_of_ne m ρ c main_arg7 (by decide)).trans (W3_arg7 m ρ c)
theorem W4_arg8 : W4 m ρ c (Proc.devRef .tc main_arg8) = (m ((c : Thread nD τ).loc main_arg8)) :=
  (W4_of_ne m ρ c main_arg8 (by decide)).trans (W3_arg8 m ρ c)
theorem W4_arg9 : W4 m ρ c (Proc.devRef .tc main_arg9) = (m ((c : Thread nD τ).loc main_arg9)) :=
  (W4_of_ne m ρ c main_arg9 (by decide)).trans (W3_arg9 m ρ c)
theorem W4_arg10 : W4 m ρ c (Proc.devRef .tc main_arg10) = (m ((c : Thread nD τ).loc main_arg10)) :=
  (W4_of_ne m ρ c main_arg10 (by decide)).trans (W3_arg10 m ρ c)
theorem W4_arg11 : W4 m ρ c (Proc.devRef .tc main_arg11) = (m ((c : Thread nD τ).loc main_arg11)) :=
  (W4_of_ne m ρ c main_arg11 (by decide)).trans (W3_arg11 m ρ c)
theorem W4_arg12 : W4 m ρ c (Proc.devRef .tc main_arg12) = (m ((c : Thread nD τ).loc main_arg12)) :=
  (W4_of_ne m ρ c main_arg12 (by decide)).trans (W3_arg12 m ρ c)
theorem W4_arg13 : W4 m ρ c (Proc.devRef .tc main_arg13) = (m ((c : Thread nD τ).loc main_arg13)) :=
  (W4_of_ne m ρ c main_arg13 (by decide)).trans (W3_arg13 m ρ c)
theorem W4_arg14 : W4 m ρ c (Proc.devRef .tc main_arg14) = (m ((c : Thread nD τ).loc main_arg14)) :=
  (W4_of_ne m ρ c main_arg14 (by decide)).trans (W3_arg14 m ρ c)

end Cert.KernelIdeal.Host

end
-- ==== Proof.HostB.lean ====
import proofs.«124590_j59665685676525_2_alg».proof.Proof.Gen.KernelIdeal.Frame
import proofs.«124590_j59665685676525_2_alg».proof.Proof.ReadP
import proofs.«124590_j59665685676525_2_alg».proof.Proof.LibFormats
import proofs.«124590_j59665685676525_2_alg».proof.Proof.RefLayers
import proofs.«124590_j59665685676525_2_alg».proof.Proof.HostA
import Idealize.ShloMosaic.Lib.StableHlo.Run
import Idealize.ShloMosaic.Lib.ValueLayout

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx Cert.LibFormats
open Cert.ReferenceIdeal.ReadP (val_main_v1 val_main_v3 val_main_v15 val_main_v25 val_main_v34 val_main_v44 val_main_v53 val_main_v63 val_main_v86)

variable (m : (ℓ : Loc nD τ sig) → Buf (Elt Ideal) ℓ) (ρ : Dev nD → PrngReg) (c : Dev nD)

/-! # The buffers the second pipeline finds, and what it leaves -/

set_option maxHeartbeats 2000000 in
/-- The second layer's aggregated features: the scatter-add, by destination, of the source nodes' rows of the first
    hidden layer. -/
theorem W5_v40 : W5 m ρ c (Proc.devRef .tc main_v40) = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W5]
  after_results_simp
  rw [W4_v29, W4_v1, W4_v3, extf_eq]
  unfold Cert.ReferenceIdeal.ReadP.val_main_v44 Cert.ReferenceIdeal.ReadP.val_main_v43 Cert.ReferenceIdeal.ReadP.val_main_v42 Cert.ReferenceIdeal.ReadP.val_main_cst_9 Cert.ReferenceIdeal.ReadP.val_main_v41 Cert.ReferenceIdeal.ReadP.val_main_v40 Cert.ReferenceIdeal.ReadP.val_main_v39 Cert.ReferenceIdeal.ReadP.val_main_v38 Cert.ReferenceIdeal.ReadP.val_main_v37 Cert.ReferenceIdeal.ReadP.val_main_c_8 Cert.ReferenceIdeal.ReadP.val_main_v36 Cert.ReferenceIdeal.ReadP.val_main_v35 Cert.ReferenceIdeal.ReadP.val_main_c_7
  rfl

set_option maxHeartbeats 1000000 in
theorem W5_v29 : W5 m ρ c (Proc.devRef .tc main_v29) = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W5]
  after_results_simp
  exact W4_v29 m ρ c
set_option maxHeartbeats 1000000 in
theorem W5_v15 : W5 m ρ c (Proc.devRef .tc main_v15) = val_main_v15 (F := Ideal) (m ((c : Thread nD τ).loc main_arg1)) := by
  dsimp only [W5]
  after_results_simp
  exact W4_v15 m ρ c
set_option maxHeartbeats 1000000 in
theorem W5_v1 : W5 m ρ c (Proc.devRef .tc main_v1) = val_main_v1 (F := Ideal) (m ((c : Thread nD τ).loc main_arg1)) := by
  dsimp only [W5]
  after_results_simp
  exact W4_v1 m ρ c
set_option maxHeartbeats 1000000 in
theorem W5_v3 : W5 m ρ c (Proc.devRef .tc main_v3) = val_main_v3 (F := Ideal) (m ((c : Thread nD τ).loc main_arg1)) := by
  dsimp only [W5]
  after_results_simp
  exact W4_v3 m ρ c
set_option maxHeartbeats 1000000 in
theorem W5_arg5 : W5 m ρ c (Proc.devRef .tc main_arg5) = (m ((c : Thread nD τ).loc main_arg5)) := by
  dsimp only [W5]
  after_results_simp
  exact W4_arg5 m ρ c
set_option maxHeartbeats 1000000 in
theorem W5_arg7 : W5 m ρ c (Proc.devRef .tc main_arg7) = (m ((c : Thread nD τ).loc main_arg7)) := by
  dsimp only [W5]
  after_results_simp
  exact W4_arg7 m ρ c
set_option maxHeartbeats 1000000 in
theorem W5_arg8 : W5 m ρ c (Proc.devRef .tc main_arg8) = (m ((c : Thread nD τ).loc main_arg8)) := by
  dsimp only [W5]
  after_results_simp
  exact W4_arg8 m ρ c
set_option maxHeartbeats 1000000 in
theorem W5_arg9 : W5 m ρ c (Proc.devRef .tc main_arg9) = (m ((c : Thread nD τ).loc main_arg9)) := by
  dsimp only [W5]
  after_results_simp
  exact W4_arg9 m ρ c
set_option maxHeartbeats 1000000 in
theorem W5_arg10 : W5 m ρ c (Proc.devRef .tc main_arg10) = (m ((c : Thread nD τ).loc main_arg10)) := by
  dsimp only [W5]
  after_results_simp
  exact W4_arg10 m ρ c
set_option maxHeartbeats 1000000 in
theorem W5_arg11 : W5 m ρ c (Proc.devRef .tc main_arg11) = (m ((c : Thread nD τ).loc main_arg11)) := by
  dsimp only [W5]
  after_results_simp
  exact W4_arg11 m ρ c
set_option maxHeartbeats 1000000 in
theorem W5_arg12 : W5 m ρ c (Proc.devRef .tc main_arg12) = (m ((c : Thread nD τ).loc main_arg12)) := by
  dsimp only [W5]
  after_results_simp
  exact W4_arg12 m ρ c
set_option maxHeartbeats 1000000 in
theorem W5_arg13 : W5 m ρ c (Proc.devRef .tc main_arg13) = (m ((c : Thread nD τ).loc main_arg13)) := by
  dsimp only [W5]
  after_results_simp
  exact W4_arg13 m ρ c
set_option maxHeartbeats 1000000 in
theorem W5_arg14 : W5 m ρ c (Proc.devRef .tc main_arg14) = (m ((c : Thread nD τ).loc main_arg14)) := by
  dsimp only [W5]
  after_results_simp
  exact W4_arg14 m ρ c

set_option maxHeartbeats 1000000 in
theorem W5_v41 : W5 m ρ c (Proc.devRef .tc main_v41) = shapeCast S1x64 (m ((c : Thread nD τ).loc main_arg6)) shapeCasts_S64_S1x64 := by
  dsimp only [W5]
  after_results_simp
  rw [W4_arg6]
  rfl

/-- The second pipeline's output is the reference's second hidden layer. -/
theorem W6_v42 : W6 m ρ c (Proc.devRef .tc main_v42) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 6).trans ((Cert.KernelIdeal.Layer1.final (V5 m ρ) c).trans ?_)
  show Cert.KernelIdeal.Layer1.out (W5 m ρ c (Proc.devRef .tc main_v40)) (W5 m ρ c (Proc.devRef .tc main_v29))
    (W5 m ρ c (Proc.devRef .tc main_v15)) (W5 m ρ c (Proc.devRef .tc main_arg5)) (W5 m ρ c (Proc.devRef .tc main_v41))
    (W5 m ρ c (Proc.devRef .tc main_arg7)) = _
  rw [W5_v40, W5_v29, W5_v15, W5_arg5, W5_v41, W5_arg7]
  exact (Cert.ReferenceIdeal.Layers.layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) _ (fun c' => shapeCast_a_1a_apply _ _ 0 c')).symm

/-! ## What the second pipeline leaves untouched -/

theorem W6_v1 : W6 m ρ c (Proc.devRef .tc main_v1) = val_main_v1 (F := Ideal) (m ((c : Thread nD τ).loc main_arg1)) :=
  (W6_of_ne m ρ c main_v1 (by decide)).trans (W5_v1 m ρ c)
theorem W6_v3 : W6 m ρ c (Proc.devRef .tc main_v3) = val_main_v3 (F := Ideal) (m ((c : Thread nD τ).loc main_arg1)) :=
  (W6_of_ne m ρ c main_v3 (by decide)).trans (W5_v3 m ρ c)
theorem W6_v15 : W6 m ρ c (Proc.devRef .tc main_v15) = val_main_v15 (F := Ideal) (m ((c : Thread nD τ).loc main_arg1)) :=
  ((W6_arr m ρ c 2).trans (((dat1 (V5 m ρ) c).arrAt_in 2 rfl _).trans (A_eq1 (V5 m ρ) c 2))).trans (W5_v15 m ρ c)
theorem W6_arg8 : W6 m ρ c (Proc.devRef .tc main_arg8) = (m ((c : Thread nD τ).loc main_arg8)) :=
  (W6_of_ne m ρ c main_arg8 (by decide)).trans (W5_arg8 m ρ c)
theorem W6_arg9 : W6 m ρ c (Proc.devRef .tc main_arg9) = (m ((c : Thread nD τ).loc main_arg9)) :=
  (W6_of_ne m ρ c main_arg9 (by decide)).trans (W5_arg9 m ρ c)
theorem W6_arg10 : W6 m ρ c (Proc.devRef .tc main_arg10) = (m ((c : Thread nD τ).loc main_arg10)) :=
  (W6_of_ne m ρ c main_arg10 (by decide)).trans (W5_arg10 m ρ c)
theorem W6_arg11 : W6 m ρ c (Proc.devRef .tc main_arg11) = (m ((c : Thread nD τ).loc main_arg11)) :=
  (W6_of_ne m ρ c main_arg11 (by decide)).trans (W5_arg11 m ρ c)
theorem W6_arg12 : W6 m ρ c (Proc.devRef .tc main_arg12) = (m ((c : Thread nD τ).loc main_arg12)) :=
  (W6_of_ne m ρ c main_arg12 (by decide)).trans (W5_arg12 m ρ c)
theorem W6_arg13 : W6 m ρ c (Proc.devRef .tc main_arg13) = (m ((c : Thread nD τ).loc main_arg13)) :=
  (W6_of_ne m ρ c main_arg13 (by decide)).trans (W5_arg13 m ρ c)
theorem W6_arg14 : W6 m ρ c (Proc.devRef .tc main_arg14) = (m ((c : Thread nD τ).loc main_arg14)) :=
  (W6_of_ne m ρ c main_arg14 (by decide)).trans (W5_arg14 m ρ c)

end Cert.KernelIdeal.Host

end
-- ==== Proof.HostC.lean ====
import proofs.«124590_j59665685676525_2_alg».proof.Proof.Gen.KernelIdeal.Frame
import proofs.«124590_j59665685676525_2_alg».proof.Proof.ReadP
import proofs.«124590_j59665685676525_2_alg».proof.Proof.LibFormats
import proofs.«124590_j59665685676525_2_alg».proof.Proof.RefLayers
import proofs.«124590_j59665685676525_2_alg».proof.Proof.HostB
import Idealize.ShloMosaic.Lib.StableHlo.Run
import Idealize.ShloMosaic.Lib.ValueLayout

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx Cert.LibFormats
open Cert.ReferenceIdeal.ReadP (val_main_v1 val_main_v3 val_main_v15 val_main_v25 val_main_v34 val_main_v44 val_main_v53 val_main_v63 val_main_v86)

variable (m : (ℓ : Loc nD τ sig) → Buf (Elt Ideal) ℓ) (ρ : Dev nD → PrngReg) (c : Dev nD)

/-! # The buffers the last pipeline finds, and the result -/

set_option maxHeartbeats 2000000 in
/-- The third layer's aggregated features: the scatter-add, by destination, of the source nodes' rows of the second
    hidden layer. -/
theorem W7_v53 : W7 m ρ c (Proc.devRef .tc main_v53) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [W7]
  after_results_simp
  rw [W6_v42, W6_v1, W6_v3, extf_eq]
  unfold Cert.ReferenceIdeal.ReadP.val_main_v63 Cert.ReferenceIdeal.ReadP.val_main_v62 Cert.ReferenceIdeal.ReadP.val_main_v61 Cert.ReferenceIdeal.ReadP.val_main_cst_12 Cert.ReferenceIdeal.ReadP.val_main_v60 Cert.ReferenceIdeal.ReadP.val_main_v59 Cert.ReferenceIdeal.ReadP.val_main_v58 Cert.ReferenceIdeal.ReadP.val_main_v57 Cert.ReferenceIdeal.ReadP.val_main_v56 Cert.ReferenceIdeal.ReadP.val_main_c_11 Cert.ReferenceIdeal.ReadP.val_main_v55 Cert.ReferenceIdeal.ReadP.val_main_v54 Cert.ReferenceIdeal.ReadP.val_main_c_10
  rfl

set_option maxHeartbeats 1000000 in
theorem W7_v42 : W7 m ρ c (Proc.devRef .tc main_v42) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [W7]
  after_results_simp
  exact W6_v42 m ρ c
set_option maxHeartbeats 1000000 in
theorem W7_v15 : W7 m ρ c (Proc.devRef .tc main_v15) = val_main_v15 (F := Ideal) (m ((c : Thread nD τ).loc main_arg1)) := by
  dsimp only [W7]
  after_results_simp
  exact W6_v15 m ρ c
set_option maxHeartbeats 1000000 in
theorem W7_arg8 : W7 m ρ c (Proc.devRef .tc main_arg8) = (m ((c : Thread nD τ).loc main_arg8)) := by
  dsimp only [W7]
  after_results_simp
  exact W6_arg8 m ρ c
set_option maxHeartbeats 1000000 in
theorem W7_arg10 : W7 m ρ c (Proc.devRef .tc main_arg10) = (m ((c : Thread nD τ).loc main_arg10)) := by
  dsimp only [W7]
  after_results_simp
  exact W6_arg10 m ρ c
set_option maxHeartbeats 1000000 in
theorem W7_arg11 : W7 m ρ c (Proc.devRef .tc main_arg11) = (m ((c : Thread nD τ).loc main_arg11)) := by
  dsimp only [W7]
  after_results_simp
  exact W6_arg11 m ρ c
set_option maxHeartbeats 1000000 in
theorem W7_arg13 : W7 m ρ c (Proc.devRef .tc main_arg13) = (m ((c : Thread nD τ).loc main_arg13)) := by
  dsimp only [W7]
  after_results_simp
  exact W6_arg13 m ρ c
set_option maxHeartbeats 1000000 in
theorem W7_v54 : W7 m ρ c (Proc.devRef .tc main_v54) = shapeCast S1x64 (m ((c : Thread nD τ).loc main_arg9)) shapeCasts_S64_S1x64 := by
  dsimp only [W7]
  after_results_simp
  rw [W6_arg9]
  rfl
set_option maxHeartbeats 1000000 in
theorem W7_v55 : W7 m ρ c (Proc.devRef .tc main_v55) = shapeCast S1x64 (m ((c : Thread nD τ).loc main_arg12)) shapeCasts_S64_S1x64 := by
  dsimp only [W7]
  after_results_simp
  rw [W6_arg12]
  rfl
set_option maxHeartbeats 1000000 in
theorem W7_v56 : W7 m ρ c (Proc.devRef .tc main_v56) = shapeCast S1x1 (m ((c : Thread nD τ).loc main_arg14)) shapeCasts_S1_S1x1 := by
  dsimp only [W7]
  after_results_simp
  rw [W6_arg14]
  rfl

/-- The result buffer after the run is the reference's result, as a function of the fifteen arguments. -/
theorem W8_v57 : W8 m ρ c (Proc.devRef .tc main_v57) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W8_arr m ρ c 10).trans ((Cert.KernelIdeal.Head.final (V7 m ρ) c).trans ?_)
  show Cert.KernelIdeal.Head.out (W7 m ρ c (Proc.devRef .tc main_v53)) (W7 m ρ c (Proc.devRef .tc main_v42))
    (W7 m ρ c (Proc.devRef .tc main_v15)) (W7 m ρ c (Proc.devRef .tc main_arg8)) (W7 m ρ c (Proc.devRef .tc main_v54))
    (W7 m ρ c (Proc.devRef .tc main_arg10)) (W7 m ρ c (Proc.devRef .tc main_arg11)) (W7 m ρ c (Proc.devRef .tc main_v55))
    (W7 m ρ c (Proc.devRef .tc main_arg13)) (W7 m ρ c (Proc.devRef .tc main_v56)) = _
  rw [W7_v53, W7_v42, W7_v15, W7_arg8, W7_v54, W7_arg10, W7_arg11, W7_v55, W7_arg13, W7_v56]
  exact (Cert.ReferenceIdeal.Layers.head (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) _ (fun c' => shapeCast_a_1a_apply _ _ 0 c') _ (fun c' => shapeCast_a_1a_apply _ _ 0 c') _ (fun z => shapeCast_a_1a_apply _ _ 0 z)).symm

end Cert.KernelIdeal.Host

end
-- ==== Proof.lean ====
/-
  Three layers of mean-aggregation message passing over a graph of 100000 nodes and 1600000 edges, a two-layer predictor
  and the logistic function: the tiled program against the plain one, at the ideal values.

  Both programs compute, from the node features x and the edge list (src, dst):
      cnt[v]   = the number of edges into v,          inv[v] = 1 / max(cnt[v], 1) if cnt[v] > 0, else 0,
      agg(h)[v] = the sum of h[src(e)] over the edges e into v  (a gather followed by a scatter-add),
      layer(h)  = (agg(h) · inv) · Wn + b + h · Wr,
      h1 = max(layer₀(x), 0),  h2 = max(layer₁(h1), 0),  h3 = layer₂(h2),
      result = logistic( max(h3 · Wp1 + bp1, 0) · Wp2 + bp2 ).
  The tiled program runs the gathers and scatter-adds as host operations (the same operations as the plain program, on
  features rounded to a narrow format and widened again — the identity at the ideal values) and each layer's dense part
  as a pipeline over twenty blocks of 5000 rows, the last layer fused with the predictor and the logistic function.

  The proof follows the tiled program's buffers through its eight segments. Each pipeline's output array is ONE function of
  its operand arrays (a block of rows at a time, the blocks tiling the array); that function is the plain program's layer,
  entry by entry: a matrix product is the sum over the contracted axis on both sides, the bias is added before or after
  the second product (addition of extended reals commutes and associates, so no finiteness is used), the maximum with zero
  is the same, and the logistic function is 1 / (1 + e^(−x)) by definition. Between pipelines both programs apply the same
  gather and scatter-add to equal arrays. So the result buffer ends at the plain program's result term of the arguments.
  The three frames are the generated frame runs and the plain program's run with the result dropped; the idealization
  rewrote nothing, so there is nothing to preserve.
-/
import proofs.«124590_j59665685676525_2_alg».proof.Defs
import proofs.«124590_j59665685676525_2_alg».proof.Proof.Gen.Kernel
import proofs.«124590_j59665685676525_2_alg».proof.Proof.Gen.Kernel.Skeleton
import proofs.«124590_j59665685676525_2_alg».proof.Proof.Gen.Kernel.Launch
import proofs.«124590_j59665685676525_2_alg».proof.Proof.Gen.Kernel.Points
import proofs.«124590_j59665685676525_2_alg».proof.Proof.Gen.Kernel.Frame
import proofs.«124590_j59665685676525_2_alg».proof.Proof.Gen.KernelIdeal
import proofs.«124590_j59665685676525_2_alg».proof.Proof.Gen.KernelIdeal.Skeleton
import proofs.«124590_j59665685676525_2_alg».proof.Proof.Gen.KernelIdeal.Launch
import proofs.«124590_j59665685676525_2_alg».proof.Proof.Gen.KernelIdeal.Points
import proofs.«124590_j59665685676525_2_alg».proof.Proof.Gen.KernelIdeal.Frame
import proofs.«124590_j59665685676525_2_alg».proof.Proof.Gen.ReferenceIdeal
import proofs.«124590_j59665685676525_2_alg».proof.Proof.Gen.Pre_finite_inputs
import proofs.«124590_j59665685676525_2_alg».proof.Proof.RunP
import proofs.«124590_j59665685676525_2_alg».proof.Proof.ReadP
import proofs.«124590_j59665685676525_2_alg».proof.Proof.KRun
import proofs.«124590_j59665685676525_2_alg».proof.Proof.HostC
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- The idealized tiled program runs and leaves its arguments as launched. -/
theorem frame_kernelIdeal : Cert.frame_KernelIdeal := fun m ρ _ => Cert.KernelIdeal.Gen.frame m ρ

/-- The plain program runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the fifteen arguments both programs end with the result buffer at the plain program's
    result term of those arguments: the tiled program by following its buffers through its segments, the plain program by
    its run. -/
theorem algebraic : Cert.algebraic_KernelIdeal_ReferenceIdeal := by
  intro m ρ m' ρ' _ hagree
  refine ⟨fun c => Cert.ReferenceIdeal.ReadP.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun r h c => ⟨(h c).1.trans (Cert.KernelIdeal.Host.W8_v57 m ρ c), (h c).2⟩)
      (Cert.KernelIdeal.RunAll.run_result (F := Ideal) m ρ)
  · refine (θ_run Cert.ReferenceIdeal.defs _ _).mono (fun r h c => ⟨?_, (h c).2⟩) (Cert.ReferenceIdeal.ValueP.run (F := Ideal) m' ρ')
    obtain ⟨g0, g1, g2, g3, g4, g5, g6, g7, g8, g9, g10, g11, g12, g13, g14⟩ := hagree c
    rw [(h c).1, Cert.ReferenceIdeal.ReadP.val_main_v86_eq, g0, g1, g2, g3, g4, g5, g6, g7, g8, g9, g10, g11, g12, g13, g14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
